-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S512x64 : Shape := ⟨2, ![512, 64]⟩
abbrev S1024x64 : Shape := ⟨2, ![1024, 64]⟩
abbrev S4096x64 : Shape := ⟨2, ![4096, 64]⟩
abbrev S4096 : Shape := ⟨1, ![4096]⟩
abbrev S1x512 : Shape := ⟨2, ![1, 512]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x64 : S_.BroadcastsInDim S512x64 (![] : Fin 0 → Fin S512x64.rank)
  reducesTo_S512x64_S_d0_1 : S512x64.ReducesTo [0, 1] S_
  bcast_S_S1024x64 : S_.BroadcastsInDim S1024x64 (![] : Fin 0 → Fin S1024x64.rank)
  reducesTo_S1024x64_S_d0_1 : S1024x64.ReducesTo [0, 1] S_
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S1x512 .f32) (main_arg10 : FVec F S1x1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_v48 main_v49 main_v50

def fn_part1 {F : FTy → Type} [FloatOps F] (main_arg4 : FVec F S1024x64 .f32) (main_arg5 : FVec F S4096x64 .f32) (main_arg6 : FVec F S4096x64 .f32) (main_arg7 : FVec F S4096 .f32) (main_arg8 : FVec F S4096 .f32) (main_arg9 : FVec F S1x512 .f32) (main_arg10 : FVec F S1x1024 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S4096x64 .f32 := Host.absf main_arg5
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S8192x1024 .f32) (main_arg2 : FVec F S8192x1024 .f32) (main_arg3 : FVec F S512x64 .f32) (main_arg4 : FVec F S1024x64 .f32) (main_arg5 : FVec F S4096x64 .f32) (main_arg6 : FVec F S4096x64 .f32) (main_arg7 : FVec F S4096 .f32) (main_arg8 : FVec F S4096 .f32) (main_arg9 : FVec F S1x512 .f32) (main_arg10 : FVec F S1x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S8192x1024 : Shape := ⟨2, ![8192, 1024]⟩
abbrev S512x64 : Shape := ⟨2, ![512, 64]⟩
abbrev S1024x64 : Shape := ⟨2, ![1024, 64]⟩
abbrev S4096x64 : Shape := ⟨2, ![4096, 64]⟩
abbrev S4096 : Shape := ⟨1, ![4096]⟩
abbrev S1x512 : Shape := ⟨2, ![1, 512]⟩
abbrev S1x1024 : Shape := ⟨2, ![1, 1024]⟩
abbrev S64x4096 : Shape := ⟨2, ![64, 4096]⟩
abbrev S128x4096 : Shape := ⟨2, ![128, 4096]⟩
abbrev S4x1024x64 : Shape := ⟨3, ![4, 1024, 64]⟩
abbrev S1x512x64 : Shape := ⟨3, ![1, 512, 64]⟩
abbrev S4x512x64 : Shape := ⟨3, ![4, 512, 64]⟩
abbrev S_ : Shape := ⟨0, ![]⟩
abbrev S4x512 : Shape := ⟨2, ![4, 512]⟩
abbrev S1x1024x64 : Shape := ⟨3, ![1, 1024, 64]⟩
abbrev S4x1024 : Shape := ⟨2, ![4, 1024]⟩
abbrev S256x512 : Shape := ⟨2, ![256, 512]⟩
abbrev S256x1024 : Shape := ⟨2, ![256, 1024]⟩
abbrev S256x64 : Shape := ⟨2, ![256, 64]⟩
abbrev S256x128 : Shape := ⟨2, ![256, 128]⟩
abbrev S256x4096 : Shape := ⟨2, ![256, 4096]⟩

abbrev nBuf : Space → Nat
  | .hbm => 44
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x64, .f32⟩
  | .hbm, ⟨4, _⟩ => ⟨S1024x64, .f32⟩
  | .hbm, ⟨5, _⟩ => ⟨S4096x64, .f32⟩
  | .hbm, ⟨6, _⟩ => ⟨S4096x64, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S512x64, .bf16⟩
  | .hbm, ⟨12, _⟩ => ⟨S1024x64, .bf16⟩
  | .hbm, ⟨13, _⟩ => ⟨S64x4096, .f32⟩
  | .hbm, ⟨14, _⟩ => ⟨S64x4096, .f32⟩
  | .hbm, ⟨15, _⟩ => ⟨S128x4096, .f32⟩
  | .hbm, ⟨16, _⟩ => ⟨S128x4096, .bf16⟩
  | .hbm, ⟨17, _⟩ => ⟨S4x1024x64, .f32⟩
  | .hbm, ⟨18, _⟩ => ⟨S4x1024x64, .f32⟩
  | .hbm, ⟨19, _⟩ => ⟨S1x512x64, .f32⟩
  | .hbm, ⟨20, _⟩ => ⟨S4x512x64, .f32⟩
  | .hbm, ⟨21, _⟩ => ⟨S4x512x64, .f32⟩
  | .hbm, ⟨22, _⟩ => ⟨S4x512x64, .f32⟩
  | .hbm, ⟨23, _⟩ => ⟨S_, .f32⟩
  | .hbm, ⟨24, _⟩ => ⟨S4x512, .f32⟩
  | .hbm, ⟨25, _⟩ => ⟨S1x1024x64, .f32⟩
  | .hbm, ⟨26, _⟩ => ⟨S4x1024x64, .f32⟩
  | .hbm, ⟨27, _⟩ => ⟨S4x1024x64, .f32⟩
  | .hbm, ⟨28, _⟩ => ⟨S_, .f32⟩
  | .hbm, ⟨29, _⟩ => ⟨S4x1024, .f32⟩
  | .hbm, ⟨30, _⟩ => ⟨S_, .i32⟩
  | .hbm, ⟨31, _⟩ => ⟨S_, .f32⟩
  | .hbm, ⟨32, _⟩ => ⟨S4x1024, .f32⟩
  | .hbm, ⟨33, _⟩ => ⟨S_, .i32⟩
  | .hbm, ⟨34, _⟩ => ⟨S_, .f32⟩
  | .hbm, ⟨35, _⟩ => ⟨S1x1024, .f32⟩
  | .hbm, ⟨36, _⟩ => ⟨S4x1024, .f32⟩
  | .hbm, ⟨37, _⟩ => ⟨S4x1024, .f32⟩
  | .hbm, ⟨38, _⟩ => ⟨S4x1024, .f32⟩
  | .hbm, ⟨39, _⟩ => ⟨S4x1024, .f32⟩
  | .hbm, ⟨40, _⟩ => ⟨S4096, .f32⟩
  | .hbm, ⟨41, _⟩ => ⟨S4x1024, .f32⟩
  | .hbm, ⟨42, _⟩ => ⟨S8192x1024, .f32⟩
  | .hbm, ⟨43, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S512x64, .bf16⟩
  | .local _ .vmem, ⟨7, _⟩ => ⟨S1024x64, .bf16⟩
  | .local _ .vmem, ⟨8, _⟩ => ⟨S128x4096, .bf16⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_c_1 : Ref sig .tc := ⟨.hbm, 33, rfl⟩
abbrev main_call1_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  transposes_S4096x64_S64x4096_1_0 : S4096x64.Transposes [1, 0] S64x4096
  concatenates_S64x4096_S64x4096_S128x4096_d0 : Shape.Concatenates [S64x4096, S64x4096] S128x4096 0
  shapeCasts_S4096x64_S4x1024x64 : S4096x64.ShapeCasts S4x1024x64
  bcast_S512x64_S1x512x64_1_2 : S512x64.BroadcastsInDim S1x512x64 (![1, 2] : Fin 2 → Fin S1x512x64.rank)
  slices_S4x1024x64_S4x512x64_0_0_0 : S4x1024x64.Slices ![0, 0, 0] S4x512x64
  bcast_S1x512x64_S4x512x64_0_1_2 : S1x512x64.BroadcastsInDim S4x512x64 (![0, 1, 2] : Fin 3 → Fin S4x512x64.rank)
  reducesTo_S4x512x64_S4x512_d2 : S4x512x64.ReducesTo [2] S4x512
  h_S_ : 0 < S_.numel
  bcast_S1024x64_S1x1024x64_1_2 : S1024x64.BroadcastsInDim S1x1024x64 (![1, 2] : Fin 2 → Fin S1x1024x64.rank)
  bcast_S1x1024x64_S4x1024x64_0_1_2 : S1x1024x64.BroadcastsInDim S4x1024x64 (![0, 1, 2] : Fin 3 → Fin S4x1024x64.rank)
  reducesTo_S4x1024x64_S4x1024_d2 : S4x1024x64.ReducesTo [2] S4x1024
  pads_S4x512_S4x1024_000_05120 : S4x512.Pads (![0, 0] : Fin 2 → Nat) ![0, 512] ![0, 0] S4x1024
  pads_S1x512_S1x1024_000_05120 : S1x512.Pads (![0, 0] : Fin 2 → Nat) ![0, 512] ![0, 0] S1x1024
  bcast_S1x1024_S4x1024_0_1 : S1x1024.BroadcastsInDim S4x1024 (![0, 1] : Fin 2 → Fin S4x1024.rank)
  shapeCasts_S4096_S4x1024 : S4096.ShapeCasts S4x1024
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  concatenates_S256x64_S256x64_S256x128_d1 : Shape.Concatenates [S256x64, S256x64] S256x128 1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  concatenates_S256x512_S256x512_S256x1024_d1 : Shape.Concatenates [S256x512, S256x512] S256x1024 1
  slices_S256x4096_o0_1024_S256x1024 : S256x4096.Slices ![0, 1024] S256x1024
  inb_S4x1024_S1x1024_1_0 : ∀ a, (![1, 0] : Fin 2 → Nat) a + S1x1024.size a ≤ S4x1024.size a
  h_S1x1024 : 0 < S1x1024.numel
  shapeCasts_S1x1024_S1x1024 : S1x1024.ShapeCasts S1x1024
  broadcasts_S1x1024_S256x1024 : S1x1024.Broadcasts S256x1024
  slices_S256x4096_o0_0_S256x1024 : S256x4096.Slices ![0, 0] S256x1024
  inb_S4x1024_S1x1024_0_0 : ∀ a, (![0, 0] : Fin 2 → Nat) a + S1x1024.size a ≤ S4x1024.size a
  slices_S256x4096_o0_3072_S256x1024 : S256x4096.Slices ![0, 3072] S256x1024
  inb_S4x1024_S1x1024_3_0 : ∀ a, (![3, 0] : Fin 2 → Nat) a + S1x1024.size a ≤ S4x1024.size a
  slices_S256x4096_o0_2048_S256x1024 : S256x4096.Slices ![0, 2048] S256x1024
  inb_S4x1024_S1x1024_2_0 : ∀ a, (![2, 0] : Fin 2 → Nat) a + S1x1024.size a ≤ S4x1024.size a
  dot_S256x512_S512x64_S256x64_1_0_0_1_n_n_wf : DotDims.WF S256x512 S512x64 S256x64 [1] [0] [0] [1] [] []
  dot_S256x1024_S1024x64_S256x64_1_0_0_1_n_n_wf : DotDims.WF S256x1024 S1024x64 S256x64 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .bf16 = 32 ∨ (Rect.block (s := S512x64) S512x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S128x4096.size a
  hwx0_5 : ∀ i : grid0.Coords, EltTy.bits .bf16 = 32 ∨ (Rect.block (s := S128x4096) S128x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1024.size a ≤ S4x1024.size a
  hwx0_8 : ∀ i : grid0.Coords, EltTy.bits .f32 = 32 ∨ (Rect.block (s := S4x1024) S4x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S4x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v25_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S512x64 : Shape := ⟨2, ![512, 64]⟩
abbrev S1024x64 : Shape := ⟨2, ![1024, 64]⟩
abbrev S4096x64 : Shape := ⟨2, ![4096, 64]⟩
abbrev S4096 : Shape := ⟨1, ![4096]⟩
abbrev S1x512 : Shape := ⟨2, ![1, 512]⟩
abbrev S1x1024 : Shape := ⟨2, ![1, 1024]⟩
abbrev S_ : Shape := ⟨0, ![]⟩
abbrev S8192x64 : Shape := ⟨2, ![8192, 64]⟩
abbrev S64x4096 : Shape := ⟨2, ![64, 4096]⟩
abbrev S8192x4096 : Shape := ⟨2, ![8192, 4096]⟩
abbrev S4x1024x64 : Shape := ⟨3, ![4, 1024, 64]⟩
abbrev S1x512x64 : Shape := ⟨3, ![1, 512, 64]⟩
abbrev S4x512x64 : Shape := ⟨3, ![4, 512, 64]⟩
abbrev S4x512 : Shape := ⟨2, ![4, 512]⟩
abbrev S1x1024x64 : Shape := ⟨3, ![1, 1024, 64]⟩
abbrev S4x1024 : Shape := ⟨2, ![4, 1024]⟩
abbrev S8192x1x512 : Shape := ⟨3, ![8192, 1, 512]⟩
abbrev S1x4x512 : Shape := ⟨3, ![1, 4, 512]⟩
abbrev S8192x4x512 : Shape := ⟨3, ![8192, 4, 512]⟩
abbrev S8192x4x1024 : Shape := ⟨3, ![8192, 4, 1024]⟩
abbrev S8192x1x1024 : Shape := ⟨3, ![8192, 1, 1024]⟩
abbrev S1x4x1024 : Shape := ⟨3, ![1, 4, 1024]⟩
abbrev S1x4096 : Shape := ⟨2, ![1, 4096]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x64, .f32⟩
  | .hbm, ⟨4, _⟩ => ⟨S1024x64, .f32⟩
  | .hbm, ⟨5, _⟩ => ⟨S4096x64, .f32⟩
  | .hbm, ⟨6, _⟩ => ⟨S4096x64, .f32⟩
  | .hbm, ⟨7, _⟩ => ⟨S4096, .f32⟩
  | .hbm, ⟨8, _⟩ => ⟨S4096, .f32⟩
  | .hbm, ⟨9, _⟩ => ⟨S1x512, .f32⟩
  | .hbm, ⟨10, _⟩ => ⟨S1x1024, .f32⟩
  | .hbm, ⟨11, _⟩ => ⟨S8192x512, .f32⟩
  | .hbm, ⟨12, _⟩ => ⟨S8192x512, .f32⟩
  | .hbm, ⟨13, _⟩ => ⟨S_, .i32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x64, .f32⟩
  | .hbm, ⟨19, _⟩ => ⟨S64x4096, .f32⟩
  | .hbm, ⟨20, _⟩ => ⟨S8192x4096, .f32⟩
  | .hbm, ⟨21, _⟩ => ⟨S8192x64, .f32⟩
  | .hbm, ⟨22, _⟩ => ⟨S64x4096, .f32⟩
  | .hbm, ⟨23, _⟩ => ⟨S8192x4096, .f32⟩
  | .hbm, ⟨24, _⟩ => ⟨S4x1024x64, .f32⟩
  | .hbm, ⟨25, _⟩ => ⟨S4x1024x64, .f32⟩
  | .hbm, ⟨26, _⟩ => ⟨S1x512x64, .f32⟩
  | .hbm, ⟨27, _⟩ => ⟨S4x512x64, .f32⟩
  | .hbm, ⟨28, _⟩ => ⟨S4x512x64, .f32⟩
  | .hbm, ⟨29, _⟩ => ⟨S4x512x64, .f32⟩
  | .hbm, ⟨30, _⟩ => ⟨S_, .f32⟩
  | .hbm, ⟨31, _⟩ => ⟨S4x512, .f32⟩
  | .hbm, ⟨32, _⟩ => ⟨S1x1024x64, .f32⟩
  | .hbm, ⟨33, _⟩ => ⟨S4x1024x64, .f32⟩
  | .hbm, ⟨34, _⟩ => ⟨S4x1024x64, .f32⟩
  | .hbm, ⟨35, _⟩ => ⟨S_, .f32⟩
  | .hbm, ⟨36, _⟩ => ⟨S4x1024, .f32⟩
  | .hbm, ⟨37, _⟩ => ⟨S8192x1x512, .f32⟩
  | .hbm, ⟨38, _⟩ => ⟨S1x4x512, .f32⟩
  | .hbm, ⟨39, _⟩ => ⟨S8192x4x512, .f32⟩
  | .hbm, ⟨40, _⟩ => ⟨S8192x4x512, .f32⟩
  | .hbm, ⟨41, _⟩ => ⟨S8192x4x512, .f32⟩
  | .hbm, ⟨42, _⟩ => ⟨S_, .i32⟩
  | .hbm, ⟨43, _⟩ => ⟨S_, .f32⟩
  | .hbm, ⟨44, _⟩ => ⟨S8192x4x1024, .f32⟩
  | .hbm, ⟨45, _⟩ => ⟨S8192x4096, .f32⟩
  | .hbm, ⟨46, _⟩ => ⟨S8192x1x1024, .f32⟩
  | .hbm, ⟨47, _⟩ => ⟨S1x4x1024, .f32⟩
  | .hbm, ⟨48, _⟩ => ⟨S8192x4x1024, .f32⟩
  | .hbm, ⟨49, _⟩ => ⟨S8192x4x1024, .f32⟩
  | .hbm, ⟨50, _⟩ => ⟨S8192x4x1024, .f32⟩
  | .hbm, ⟨51, _⟩ => ⟨S8192x4096, .f32⟩
  | .hbm, ⟨52, _⟩ => ⟨S8192x4096, .f32⟩
  | .hbm, ⟨53, _⟩ => ⟨S1x4096, .f32⟩
  | .hbm, ⟨54, _⟩ => ⟨S8192x4096, .f32⟩
  | .hbm, ⟨55, _⟩ => ⟨S8192x4096, .f32⟩
  | .hbm, ⟨56, _⟩ => ⟨S8192x4096, .f32⟩
  | .hbm, ⟨57, _⟩ => ⟨S1x4096, .f32⟩
  | .hbm, ⟨58, _⟩ => ⟨S8192x4096, .f32⟩
  | .hbm, ⟨59, _⟩ => ⟨S8192x4096, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_1 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_4 : Ref sig .tc := ⟨.hbm, 83, rfl⟩
abbrev main_v64 : Ref sig .tc := ⟨.hbm, 84, rfl⟩
abbrev main_v65 : Ref sig .tc := ⟨.hbm, 85, rfl⟩
abbrev main_cst_5 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]

class Facts₀ : Prop where
  bcast_S1x512_S8192x512_0_1 : S1x512.BroadcastsInDim S8192x512 (![0, 1] : Fin 2 → Fin S8192x512.rank)
  pads_S8192x512_S8192x1024_000_05120 : S8192x512.Pads (![0, 0] : Fin 2 → Nat) ![0, 512] ![0, 0] S8192x1024
  h_S_ : 0 < S_.numel
  bcast_S1x1024_S8192x1024_0_1 : S1x1024.BroadcastsInDim S8192x1024 (![0, 1] : Fin 2 → Fin S8192x1024.rank)
  transposes_S4096x64_S64x4096_1_0 : S4096x64.Transposes [1, 0] S64x4096
  shapeCasts_S4096x64_S4x1024x64 : S4096x64.ShapeCasts S4x1024x64
  bcast_S512x64_S1x512x64_1_2 : S512x64.BroadcastsInDim S1x512x64 (![1, 2] : Fin 2 → Fin S1x512x64.rank)
  slices_S4x1024x64_S4x512x64_0_0_0 : S4x1024x64.Slices ![0, 0, 0] S4x512x64
  bcast_S1x512x64_S4x512x64_0_1_2 : S1x512x64.BroadcastsInDim S4x512x64 (![0, 1, 2] : Fin 3 → Fin S4x512x64.rank)
  reducesTo_S4x512x64_S4x512_d2 : S4x512x64.ReducesTo [2] S4x512
  bcast_S1024x64_S1x1024x64_1_2 : S1024x64.BroadcastsInDim S1x1024x64 (![1, 2] : Fin 2 → Fin S1x1024x64.rank)
  bcast_S1x1024x64_S4x1024x64_0_1_2 : S1x1024x64.BroadcastsInDim S4x1024x64 (![0, 1, 2] : Fin 3 → Fin S4x1024x64.rank)
  reducesTo_S4x1024x64_S4x1024_d2 : S4x1024x64.ReducesTo [2] S4x1024
  bcast_S8192x512_S8192x1x512_0_2 : S8192x512.BroadcastsInDim S8192x1x512 (![0, 2] : Fin 2 → Fin S8192x1x512.rank)
  bcast_S4x512_S1x4x512_1_2 : S4x512.BroadcastsInDim S1x4x512 (![1, 2] : Fin 2 → Fin S1x4x512.rank)
  bcast_S8192x1x512_S8192x4x512_0_1_2 : S8192x1x512.BroadcastsInDim S8192x4x512 (![0, 1, 2] : Fin 3 → Fin S8192x4x512.rank)
  bcast_S1x4x512_S8192x4x512_0_1_2 : S1x4x512.BroadcastsInDim S8192x4x512 (![0, 1, 2] : Fin 3 → Fin S8192x4x512.rank)
  pads_S8192x4x512_S8192x4x1024_000_000_05120 : S8192x4x512.Pads (![0, 0, 0] : Fin 3 → Nat) ![0, 0, 512] ![0, 0, 0] S8192x4x1024
  shapeCasts_S8192x4x1024_S8192x4096 : S8192x4x1024.ShapeCasts S8192x4096
  bcast_S8192x1024_S8192x1x1024_0_2 : S8192x1024.BroadcastsInDim S8192x1x1024 (![0, 2] : Fin 2 → Fin S8192x1x1024.rank)
  bcast_S4x1024_S1x4x1024_1_2 : S4x1024.BroadcastsInDim S1x4x1024 (![1, 2] : Fin 2 → Fin S1x4x1024.rank)
  bcast_S8192x1x1024_S8192x4x1024_0_1_2 : S8192x1x1024.BroadcastsInDim S8192x4x1024 (![0, 1, 2] : Fin 3 → Fin S8192x4x1024.rank)
  bcast_S1x4x1024_S8192x4x1024_0_1_2 : S1x4x1024.BroadcastsInDim S8192x4x1024 (![0, 1, 2] : Fin 3 → Fin S8192x4x1024.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x512_S512x64_S8192x64_1_0_0_1_n_n_wf : DotDims.WF S8192x512 S512x64 S8192x64 [1] [0] [0] [1] [] []
  dot_S8192x64_S64x4096_S8192x4096_1_0_0_1_n_n_wf : DotDims.WF S8192x64 S64x4096 S8192x4096 [1] [0] [0] [1] [] []
  dot_S8192x1024_S1024x64_S8192x64_1_0_0_1_n_n_wf : DotDims.WF S8192x1024 S1024x64 S8192x64 [1] [0] [0] [1] [] []

variable [Facts₀]

def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x4096_S8192x4096_1_0_0_1_n_n : DotDims S8192x64 S64x4096 S8192x4096 where
  lhsContracting := [1]
  rhsContracting := [0]
  lhsNonContracting := [0]
  rhsNonContracting := [1]
  lhsBatch := []
  rhsBatch := []
  wf := dot_S8192x64_S64x4096_S8192x4096_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf

class Facts : Prop extends Facts₀ where

variable [Facts]
-- ==== Proof.KernelLow.lean ====
/-
  The body's one rank-128 product, read at an entry.

  The body multiplies the row block of `x` by `ux` and the row block of `h` by `uh` (two products into zero accumulators),
  sets the two 256 × 64 results side by side along the rank axis, and multiplies the 256 × 128 result by the stacked
  128 × 4096 up-projection. Format changes are the identity on extended reals and a shape cast to the same shape is the
  identity, so entry `(p, j)` is `Σ_s cat p s · w s j` with `cat p s` the first projection at `s < 64` and the second at
  `s − 64` otherwise.
-/
import proofs.«115530_j67027259621386_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Cell.Low

open Cert.KernelIdeal Cert.KernelIdeal.Gen Idealize.ShloMosaic Idealize.ShloMosaic.ValueIdx

/-! ### The product `256 × 512` by `512 × 64` -/

theorem lhs0_512_64 (i : S256x64.Idx) (q : dot_S256x512_S512x64_S256x64_1_0_0_1_n_n.contr.Idx) : (dot_S256x512_S512x64_S256x64_1_0_0_1_n_n.lhsIdx i q 0).val = (i 0).val := by
  unfold DotDims.lhsIdx
  rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
  rfl
theorem lhs1_512_64 (i : S256x64.Idx) (q : dot_S256x512_S512x64_S256x64_1_0_0_1_n_n.contr.Idx) : (dot_S256x512_S512x64_S256x64_1_0_0_1_n_n.lhsIdx i q 1).val = (q ⟨0, by decide⟩).val :=
  dot_S256x512_S512x64_S256x64_1_0_0_1_n_n.lhsIdx_val_of_single rfl i q
theorem rhs0_512_64 (i : S256x64.Idx) (q : dot_S256x512_S512x64_S256x64_1_0_0_1_n_n.contr.Idx) : (dot_S256x512_S512x64_S256x64_1_0_0_1_n_n.rhsIdx i q 0).val = (q ⟨0, by decide⟩).val :=
  dot_S256x512_S512x64_S256x64_1_0_0_1_n_n.rhsIdx_val_of_single rfl i q
theorem rhs1_512_64 (i : S256x64.Idx) (q : dot_S256x512_S512x64_S256x64_1_0_0_1_n_n.contr.Idx) : (dot_S256x512_S512x64_S256x64_1_0_0_1_n_n.rhsIdx i q 1).val = (i 1).val := by
  unfold DotDims.rhsIdx
  rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
  rfl

/-- Into a zero accumulator the product's entry `(p, j)` is the plain sum over the contracted axis. -/
theorem matmul_512_64 (l : FVec Ideal S256x512 .bf16) (r : FVec Ideal S512x64 .bf16) (p : Fin 256) (j : Fin 64) :
    matmul dot_S256x512_S512x64_S256x64_1_0_0_1_n_n none l r (constant S256x64 .f32 0x00000000#32) (ix2 p j) = ∑ k : Fin 512, l (ix2 p k) * r (ix2 k j) := by
  simp only [matmul]
  rw [Ideal.matmul_constant_zero_apply, ← Equiv.sum_comp (ValueIdx.contrEquiv1 dot_S256x512_S512x64_S256x64_1_0_0_1_n_n 512 rfl rfl).symm]
  refine Finset.sum_congr rfl fun k _ => ?_
  have hk := ValueIdx.contrEquiv1_symm_val dot_S256x512_S512x64_S256x64_1_0_0_1_n_n 512 rfl rfl k
  have el : dot_S256x512_S512x64_S256x64_1_0_0_1_n_n.lhsIdx (ix2 p j) ((ValueIdx.contrEquiv1 dot_S256x512_S512x64_S256x64_1_0_0_1_n_n 512 rfl rfl).symm k) = ix2 p k := funext fun a => Fin.ext (by
    match a with
    | ⟨0, _⟩ => exact lhs0_512_64 _ _
    | ⟨1, _⟩ => exact (lhs1_512_64 _ _).trans hk)
  have er : dot_S256x512_S512x64_S256x64_1_0_0_1_n_n.rhsIdx (ix2 p j) ((ValueIdx.contrEquiv1 dot_S256x512_S512x64_S256x64_1_0_0_1_n_n 512 rfl rfl).symm k) = ix2 k j := funext fun a => Fin.ext (by
    match a with
    | ⟨0, _⟩ => exact (rhs0_512_64 _ _).trans hk
    | ⟨1, _⟩ => exact rhs1_512_64 _ _)
  rw [el, er]

/-! ### The product `256 × 1024` by `1024 × 64` -/

theorem lhs0_1024_64 (i : S256x64.Idx) (q : dot_S256x1024_S1024x64_S256x64_1_0_0_1_n_n.contr.Idx) : (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhs1_1024_64 (i : S256x64.Idx) (q : dot_S256x1024_S1024x64_S256x64_1_0_0_1_n_n.contr.Idx) : (dot_S256x1024_S1024x64_S256x64_1_0_0_1_n_n.lhsIdx i q 1).val = (q ⟨0, by decide⟩).val :=
  dot_S256x1024_S1024x64_S256x64_1_0_0_1_n_n.lhsIdx_val_of_single rfl i q
theorem rhs0_1024_64 (i : S256x64.Idx) (q : dot_S256x1024_S1024x64_S256x64_1_0_0_1_n_n.contr.Idx) : (dot_S256x1024_S1024x64_S256x64_1_0_0_1_n_n.rhsIdx i q 0).val = (q ⟨0, by decide⟩).val :=
  dot_S256x1024_S1024x64_S256x64_1_0_0_1_n_n.rhsIdx_val_of_single rfl i q
theorem rhs1_1024_64 (i : S256x64.Idx) (q : dot_S256x1024_S1024x64_S256x64_1_0_0_1_n_n.contr.Idx) : (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- Into a zero accumulator the product's entry `(p, j)` is the plain sum over the contracted axis. -/
theorem matmul_1024_64 (l : FVec Ideal S256x1024 .bf16) (r : FVec Ideal S1024x64 .bf16) (p : Fin 256) (j : Fin 64) :
    matmul dot_S256x1024_S1024x64_S256x64_1_0_0_1_n_n none l r (constant S256x64 .f32 0x00000000#32) (ix2 p j) = ∑ k : Fin 1024, l (ix2 p k) * r (ix2 k j) := by
  simp only [matmul]
  rw [Ideal.matmul_constant_zero_apply, ← Equiv.sum_comp (ValueIdx.contrEquiv1 dot_S256x1024_S1024x64_S256x64_1_0_0_1_n_n 1024 rfl rfl).symm]
  refine Finset.sum_congr rfl fun k _ => ?_
  have hk := ValueIdx.contrEquiv1_symm_val dot_S256x1024_S1024x64_S256x64_1_0_0_1_n_n 1024 rfl rfl k
  have el : dot_S256x1024_S1024x64_S256x64_1_0_0_1_n_n.lhsIdx (ix2 p j) ((ValueIdx.contrEquiv1 dot_S256x1024_S1024x64_S256x64_1_0_0_1_n_n 1024 rfl rfl).symm k) = ix2 p k := funext fun a => Fin.ext (by
    match a with
    | ⟨0, _⟩ => exact lhs0_1024_64 _ _
    | ⟨1, _⟩ => exact (lhs1_1024_64 _ _).trans hk)
  have er : dot_S256x1024_S1024x64_S256x64_1_0_0_1_n_n.rhsIdx (ix2 p j) ((ValueIdx.contrEquiv1 dot_S256x1024_S1024x64_S256x64_1_0_0_1_n_n 1024 rfl rfl).symm k) = ix2 k j := funext fun a => Fin.ext (by
    match a with
    | ⟨0, _⟩ => exact (rhs0_1024_64 _ _).trans hk
    | ⟨1, _⟩ => exact rhs1_1024_64 _ _)
  rw [el, er]

/-! ### The product `256 × 128` by `128 × 4096` -/

theorem lhs0_128_4096 (i : S256x4096.Idx) (q : dot_S256x128_S128x4096_S256x4096_1_0_0_1_n_n.contr.Idx) : (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhs1_128_4096 (i : S256x4096.Idx) (q : dot_S256x128_S128x4096_S256x4096_1_0_0_1_n_n.contr.Idx) : (dot_S256x128_S128x4096_S256x4096_1_0_0_1_n_n.lhsIdx i q 1).val = (q ⟨0, by decide⟩).val :=
  dot_S256x128_S128x4096_S256x4096_1_0_0_1_n_n.lhsIdx_val_of_single rfl i q
theorem rhs0_128_4096 (i : S256x4096.Idx) (q : dot_S256x128_S128x4096_S256x4096_1_0_0_1_n_n.contr.Idx) : (dot_S256x128_S128x4096_S256x4096_1_0_0_1_n_n.rhsIdx i q 0).val = (q ⟨0, by decide⟩).val :=
  dot_S256x128_S128x4096_S256x4096_1_0_0_1_n_n.rhsIdx_val_of_single rfl i q
theorem rhs1_128_4096 (i : S256x4096.Idx) (q : dot_S256x128_S128x4096_S256x4096_1_0_0_1_n_n.contr.Idx) : (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-- Into a zero accumulator the product's entry `(p, j)` is the plain sum over the contracted axis. -/
theorem matmul_128_4096 (l : FVec Ideal S256x128 .bf16) (r : FVec Ideal S128x4096 .bf16) (p : Fin 256) (j : Fin 4096) :
    matmul dot_S256x128_S128x4096_S256x4096_1_0_0_1_n_n none l r (constant S256x4096 .f32 0x00000000#32) (ix2 p j) = ∑ k : Fin 128, l (ix2 p k) * r (ix2 k j) := by
  simp only [matmul]
  rw [Ideal.matmul_constant_zero_apply, ← Equiv.sum_comp (ValueIdx.contrEquiv1 dot_S256x128_S128x4096_S256x4096_1_0_0_1_n_n 128 rfl rfl).symm]
  refine Finset.sum_congr rfl fun k _ => ?_
  have hk := ValueIdx.contrEquiv1_symm_val dot_S256x128_S128x4096_S256x4096_1_0_0_1_n_n 128 rfl rfl k
  have el : dot_S256x128_S128x4096_S256x4096_1_0_0_1_n_n.lhsIdx (ix2 p j) ((ValueIdx.contrEquiv1 dot_S256x128_S128x4096_S256x4096_1_0_0_1_n_n 128 rfl rfl).symm k) = ix2 p k := funext fun a => Fin.ext (by
    match a with
    | ⟨0, _⟩ => exact lhs0_128_4096 _ _
    | ⟨1, _⟩ => exact (lhs1_128_4096 _ _).trans hk)
  have er : dot_S256x128_S128x4096_S256x4096_1_0_0_1_n_n.rhsIdx (ix2 p j) ((ValueIdx.contrEquiv1 dot_S256x128_S128x4096_S256x4096_1_0_0_1_n_n 128 rfl rfl).symm k) = ix2 k j := funext fun a => Fin.ext (by
    match a with
    | ⟨0, _⟩ => exact (rhs0_128_4096 _ _).trans hk
    | ⟨1, _⟩ => exact rhs1_128_4096 _ _)
  rw [el, er]

/-! ### Two blocks side by side along the second axis -/

/-- Left of the seam the concatenation reads its first operand. -/
theorem cat64_left (u v : S256x64.Idx → EReal) (p : Fin 256) (s : Fin 128) (hs : s.val < 64) :
    concatenate S256x128 1 [⟨S256x64, u⟩, ⟨S256x64, v⟩] concatenates_S256x64_S256x64_S256x128_d1 (ix2 p s) = u (ix2 p ⟨s.val, hs⟩) :=
  concatenate_pair_apply_left (1 : Fin S256x128.rank) u v concatenates_S256x64_S256x64_S256x128_d1 (ix2 p s) rfl (ix2 p ⟨s.val, hs⟩)
    (fun b => match b with | ⟨0, _⟩ => rfl | ⟨1, _⟩ => rfl)

/-- Right of the seam it reads its second operand, 64 columns back. -/
theorem cat64_right (u v : S256x64.Idx → EReal) (p : Fin 256) (s : Fin 128) (hs : ¬ s.val < 64) :
    concatenate S256x128 1 [⟨S256x64, u⟩, ⟨S256x64, v⟩] concatenates_S256x64_S256x64_S256x128_d1 (ix2 p s)
      = v (ix2 p ⟨s.val - 64, by have := s.isLt; omega⟩) :=
  concatenate_pair_apply_right (1 : Fin S256x128.rank) u v concatenates_S256x64_S256x64_S256x128_d1 (ix2 p s) rfl rfl
    (ix2 p ⟨s.val - 64, by have := s.isLt; omega⟩)
    (fun b hb => match b, hb with | ⟨0, _⟩, _ => rfl | ⟨1, _⟩, hb => absurd rfl hb)
    (by show (s.val - 64) + 64 = s.val; omega)

/-- The rank-128 product at entry `(p, j)`, from the five loaded blocks. -/
theorem pay2_apply (P0 : Vec Ideal S256x512 .f32) (P1 : Vec Ideal S256x1024 .f32) (P2 : Vec Ideal S512x64 .bf16)
    (P3 : Vec Ideal S1024x64 .bf16) (P4 : Vec Ideal S128x4096 .bf16) (p : Fin 256) (j : Fin 4096) :
    k0_pay2 P0 P1 P2 P3 P4 (ix2 p j)
      = ∑ s : Fin 128, (if hs : s.val < 64 then ∑ i : Fin 512, P0 (ix2 p i) * P2 (ix2 i ⟨s.val, hs⟩)
          else ∑ i : Fin 1024, P1 (ix2 p i) * P3 (ix2 i ⟨s.val - 64, by have := s.isLt; omega⟩)) * P4 (ix2 s j) := by
  unfold k0_pay2
  rw [matmul_128_4096]
  refine Finset.sum_congr rfl fun s _ => ?_
  congr 1
  · by_cases hs : s.val < 64
    · rw [dif_pos hs, cat64_left _ _ p s hs]
      rw [truncf_apply, matmul_512_64, shapeCast_self]
      rfl
    · rw [dif_neg hs, cat64_right _ _ p s hs]
      rw [truncf_apply, matmul_1024_64, shapeCast_self]
      rfl
  · exact congrFun (shapeCast_self _ _) _

end Cert.Cell.Low

end
-- ==== Proof.Spec.lean ====
/-
  The cell, stated once as mathematics over the extended reals.

  The arguments are eleven arrays: the batch rows `x` (8192 × 512), `h` and `c` (8192 × 1024), the two down-projections
  `ux` (512 × 64) and `uh` (1024 × 64), the two up-projections `vx`, `vh` (4096 × 64, four gates of 1024 rows stacked), the two
  biases `bx`, `bh` (4096) and the two diagonals `dx` (1 × 512), `dh` (1 × 1024).

  Each of the four gates `g` has a pre-activation at batch row `b` and hidden column `k`; stacked row `g·1024 + k` of the
  up-projections and biases belongs to it. The pre-activation is written in two arrangements:

  * `preK`: ONE rank-128 product `[x·ux | h·uh] · [vxᵀ ; vhᵀ]`, plus `(dx − coefX)·x` (columns past 511 padded with zero), plus
    `(dh − coefH)·h`, plus the summed bias `bx + bh`;
  * `preR`: `(x·ux)·vxᵀ − x·coefX + bx`, plus `(h·uh)·vhᵀ − h·coefH + bh`, plus `dx·x + dh·h` (again zero-padded).

  Here `coefX g k = Σ_r ux k r · vx (g·1024+k) r` and `coefH` likewise. Over the reals the two arrangements agree by
  distributivity and by splitting the rank-128 sum into its two halves (Algebra.lean proves it for finite arguments).
  The new cell state is `σ(pre 1)·c + σ(pre 0)·tanh(pre 3)` and the new hidden state `σ(pre 2)·tanh` of it.
-/
import Idealize.ShloMosaic.PureOps.Ideal
import Idealize.ShloMosaic.Lib.ValueIdx

noncomputable section

open scoped BigOperators

namespace Cert.Cell

open Idealize.ShloMosaic Idealize.ShloMosaic.ValueIdx

/-- A rank-2 array of extended reals of the given extents. -/
abbrev Arr2 (a b : Nat) : Type := (⟨2, ![a, b]⟩ : Shape).Idx → EReal
/-- A rank-1 array of extended reals. -/
abbrev Arr1 (a : Nat) : Type := (⟨1, ![a]⟩ : Shape).Idx → EReal

/-- The eleven argument arrays. -/
structure Args where
  x : Arr2 8192 512
  h : Arr2 8192 1024
  c : Arr2 8192 1024
  ux : Arr2 512 64
  uh : Arr2 1024 64
  vx : Arr2 4096 64
  vh : Arr2 4096 64
  bx : Arr1 4096
  bh : Arr1 4096
  dx : Arr2 1 512
  dh : Arr2 1 1024

/-- Stacked row `g·1024 + k`: hidden column `k` of gate `g`. -/
def row (g : Fin 4) (k : Fin 1024) : Fin 4096 := ⟨g.val * 1024 + k.val, by have := g.isLt; have := k.isLt; omega⟩

/-- A column below 512 as a hidden column. -/
def wide (k : Fin 512) : Fin 1024 := ⟨k.val, by have := k.isLt; omega⟩

variable (A : Args)

/-- `x · ux` at batch row `b`, rank index `s`. -/
def projX (b : Fin 8192) (s : Fin 64) : EReal := ∑ i : Fin 512, A.x (ix2 b i) * A.ux (ix2 i s)
/-- `h · uh` at batch row `b`, rank index `s`. -/
def projH (b : Fin 8192) (s : Fin 64) : EReal := ∑ i : Fin 1024, A.h (ix2 b i) * A.uh (ix2 i s)

/-- The diagonal of `ux · vxᵀ` restricted to gate `g`: `Σ_r ux k r · vx (g·1024+k) r`. -/
def coefX (g : Fin 4) (k : Fin 512) : EReal := ∑ r : Fin 64, A.ux (ix2 k r) * A.vx (ix2 (row g (wide k)) r)
/-- The diagonal of `uh · vhᵀ` restricted to gate `g`. -/
def coefH (g : Fin 4) (k : Fin 1024) : EReal := ∑ r : Fin 64, A.uh (ix2 k r) * A.vh (ix2 (row g k) r)

/-! ## The fused arrangement -/

/-- The two projections side by side: rank index `s < 64` is `x·ux`, `s ≥ 64` is `h·uh` at `s − 64`. -/
def projCat (b : Fin 8192) (s : Fin 128) : EReal :=
  if hs : s.val < 64 then projX A b ⟨s.val, hs⟩ else projH A b ⟨s.val - 64, by have := s.isLt; omega⟩
/-- The two transposed up-projections stacked: row `s < 64` is `vxᵀ`, `s ≥ 64` is `vhᵀ` at `s − 64`. -/
def upCat (s : Fin 128) (j : Fin 4096) : EReal :=
  if hs : s.val < 64 then A.vx (ix2 j ⟨s.val, hs⟩) else A.vh (ix2 j ⟨s.val - 64, by have := s.isLt; omega⟩)
/-- The one rank-128 product. -/
def lowK (b : Fin 8192) (j : Fin 4096) : EReal := ∑ s : Fin 128, projCat A b s * upCat A s j
/-- `x` padded with zeros to 1024 columns. -/
def xpad (b : Fin 8192) (k : Fin 1024) : EReal := if hk : k.val < 512 then A.x (ix2 b ⟨k.val, hk⟩) else 0
/-- `dx` padded with zeros, minus `coefX` padded with zeros. -/
def aK (g : Fin 4) (k : Fin 1024) : EReal :=
  (if hk : k.val < 512 then A.dx (ix2 0 ⟨k.val, hk⟩) else 0) - (if hk : k.val < 512 then coefX A g ⟨k.val, hk⟩ else 0)
/-- `dh − coefH`. -/
def dK (g : Fin 4) (k : Fin 1024) : EReal := A.dh (ix2 0 k) - coefH A g k
/-- The summed bias. -/
def bK (g : Fin 4) (k : Fin 1024) : EReal := A.bx (ix1 (row g k)) + A.bh (ix1 (row g k))
/-- Gate `g`'s pre-activation, fused arrangement. -/
def preK (g : Fin 4) (b : Fin 8192) (k : Fin 1024) : EReal :=
  lowK A b (row g k) + aK A g k * xpad A b k + dK A g k * A.h (ix2 b k) + bK A g k

/-! ## The term-by-term arrangement -/

/-- `(x·ux)·vxᵀ`. -/
def lowX (b : Fin 8192) (j : Fin 4096) : EReal := ∑ s : Fin 64, projX A b s * A.vx (ix2 j s)
/-- `(h·uh)·vhᵀ`. -/
def lowH (b : Fin 8192) (j : Fin 4096) : EReal := ∑ s : Fin 64, projH A b s * A.vh (ix2 j s)
/-- `x · coefX`, zero past column 511. -/
def refX (g : Fin 4) (b : Fin 8192) (k : Fin 1024) : EReal :=
  if hk : k.val < 512 then A.x (ix2 b ⟨k.val, hk⟩) * coefX A g ⟨k.val, hk⟩ else 0
/-- `h · coefH`. -/
def refH (g : Fin 4) (b : Fin 8192) (k : Fin 1024) : EReal := A.h (ix2 b k) * coefH A g k
/-- `dx · x`, zero past column 511. -/
def vmX (b : Fin 8192) (k : Fin 1024) : EReal :=
  if hk : k.val < 512 then A.dx (ix2 0 ⟨k.val, hk⟩) * A.x (ix2 b ⟨k.val, hk⟩) else 0
/-- `dh · h`. -/
def vmH (b : Fin 8192) (k : Fin 1024) : EReal := A.dh (ix2 0 k) * A.h (ix2 b k)
/-- Gate `g`'s pre-activation, term by term. -/
def preR (g : Fin 4) (b : Fin 8192) (k : Fin 1024) : EReal :=
  ((lowX A b (row g k) - refX A g b k + A.bx (ix1 (row g k))) + (lowH A b (row g k) - refH A g b k + A.bh (ix1 (row g k))))
    + (vmX A b k + vmH A b k)

/-! ## The gates -/

/-- The new cell state from the four pre-activations (gate 0 input, 1 forget, 2 output, 3 candidate) and the old state. -/
def cOut (pre : Fin 4 → EReal) (c : EReal) : EReal :=
  Ideal.logistic (pre 1) * c + Ideal.logistic (pre 0) * Ideal.tanh (pre 3)
/-- The new hidden state. -/
def hOut (pre : Fin 4 → EReal) (c : EReal) : EReal := Ideal.logistic (pre 2) * Ideal.tanh (cOut pre c)

/-- The new cell state array, fused arrangement. -/
def cK : Arr2 8192 1024 := fun j => cOut (fun g => preK A g (j 0) (j 1)) (A.c j)
/-- The new hidden state array, fused arrangement. -/
def hK : Arr2 8192 1024 := fun j => hOut (fun g => preK A g (j 0) (j 1)) (A.c j)
/-- The new cell state array, term by term. -/
def cR : Arr2 8192 1024 := fun j => cOut (fun g => preR A g (j 0) (j 1)) (A.c j)
/-- The new hidden state array, term by term. -/
def hR : Arr2 8192 1024 := fun j => hOut (fun g => preR A g (j 0) (j 1)) (A.c j)

/-- Every entry of every argument the pre-activations read is a real number. -/
structure Args.Finite : Prop where
  x : ∀ i, ∃ r : ℝ, A.x i = r
  h : ∀ i, ∃ r : ℝ, A.h i = r
  ux : ∀ i, ∃ r : ℝ, A.ux i = r
  uh : ∀ i, ∃ r : ℝ, A.uh i = r
  vx : ∀ i, ∃ r : ℝ, A.vx i = r
  vh : ∀ i, ∃ r : ℝ, A.vh i = r
  bx : ∀ i, ∃ r : ℝ, A.bx i = r
  bh : ∀ i, ∃ r : ℝ, A.bh i = r
  dx : ∀ i, ∃ r : ℝ, A.dx i = r
  dh : ∀ i, ∃ r : ℝ, A.dh i = r

end Cert.Cell

end
-- ==== Proof.KernelGate.lean ====
/-
  One grid point's arithmetic, against the specification.

  Grid point `t` of 32 handles batch rows `t·256 … t·256 + 255`. With the loaded blocks described entry by entry — the
  rank-128 product as `lowK`, the three coefficient rows of gate `g` as `aK g`, `dK g`, `bK g`, the `h` block, and the
  zero-padded `x` block — gate `g`'s sum at block entry `y` is the specification's `preK` at batch row `t·256 + y₀`,
  column `y₁`. The indices the body reads at are known by their coordinates only, so each is identified by its values.
-/
import proofs.«115530_j67027259621386_2_alg».proof.Proof.Spec
import Idealize.ShloMosaic.PureOps.Ideal.Laws

noncomputable section

open scoped BigOperators

namespace Cert.Cell

open Idealize.ShloMosaic Idealize.ShloMosaic.ValueIdx

/-- Batch row `t·256 + p`: row `p` of grid point `t`'s block. -/
def brow (t : Fin 32) (p : Fin 256) : Fin 8192 := ⟨t.val * 256 + p.val, by have := t.isLt; have := p.isLt; omega⟩

abbrev B256x4096 : Shape := ⟨2, ![256, 4096]⟩
abbrev B256x1024 : Shape := ⟨2, ![256, 1024]⟩
abbrev B256x512 : Shape := ⟨2, ![256, 512]⟩
abbrev B1x1024 : Shape := ⟨2, ![1, 1024]⟩

/-- The zero-padded `x` block at entry `y`: left of column 512 the first operand of the concatenation (the `x` block), from
    there on the second (a zero splat). -/
theorem xpad_eq (A : Args) (t : Fin 32) (P0 : B256x512.Idx → EReal)
    (h0 : ∀ q : B256x512.Idx, P0 q = A.x (ix2 (brow t (q 0)) (q 1)))
    (cat : Fin 2 → (B256x512.Idx → EReal)) (hc0 : cat 0 = P0) (hc1 : cat 1 = fun _ => Ideal.ofBits .f32 0x00000000#32)
    (y : B256x1024.Idx) (sel : Fin 2) (hsel : sel.val = (y 1).val / 512)
    (i2 : B256x512.Idx) (h20 : (i2 0).val = (y 0).val) (h21 : (i2 1).val = (y 1).val % 512) :
    cat sel i2 = xpad A (brow t (y 0)) (y 1) := by
  have hy1 : (y 1).val < 1024 := (y 1).isLt
  unfold xpad
  by_cases hk : (y 1).val < 512
  · have e : sel = 0 := Fin.ext (by rw [hsel]; show (y 1).val / 512 = 0; omega)
    rw [dif_pos hk, e, hc0, h0]
    have e0 : i2 0 = y 0 := Fin.ext h20
    have e1 : i2 1 = ⟨(y 1).val, hk⟩ := Fin.ext (by rw [h21]; exact Nat.mod_eq_of_lt hk)
    rw [e0, e1]
    rfl
  · have e : sel = 1 := Fin.ext (by rw [hsel]; show (y 1).val / 512 = 1; omega)
    rw [dif_neg hk, e, hc1]
    exact Ideal.ofBits_zero_f32

/-- Gate `g`'s sum at block entry `y` is `preK` at batch row `t·256 + y₀`, column `y₁`. -/
theorem gate_eq (A : Args) (t : Fin 32) (g : Fin 4)
    (low : B256x4096.Idx → EReal) (hlow : ∀ q : B256x4096.Idx, low q = lowK A (brow t (q 0)) (q 1))
    (a d b : B1x1024.Idx → EReal) (ha : ∀ q : B1x1024.Idx, a q = aK A g (q 1)) (hd : ∀ q : B1x1024.Idx, d q = dK A g (q 1))
    (hb : ∀ q : B1x1024.Idx, b q = bK A g (q 1))
    (hv : B256x1024.Idx → EReal) (hh : ∀ q : B256x1024.Idx, hv q = A.h (ix2 (brow t (q 0)) (q 1)))
    (y : B256x1024.Idx) (xp : EReal) (hxp : xp = xpad A (brow t (y 0)) (y 1))
    (i0 : B256x4096.Idx) (h00 : (i0 0).val = (y 0).val) (h01 : (i0 1).val = (y 1).val + g.val * 1024)
    (i1 i3 i5 : B1x1024.Idx) (h1 : (i1 1).val = (y 1).val) (h3 : (i3 1).val = (y 1).val) (h5 : (i5 1).val = (y 1).val)
    (i4 : B256x1024.Idx) (h40 : (i4 0).val = (y 0).val) (h41 : (i4 1).val = (y 1).val) :
    low i0 + a i1 * xp + d i3 * hv i4 + b i5 = preK A g (brow t (y 0)) (y 1) := by
  have e00 : i0 0 = y 0 := Fin.ext h00
  have e01 : i0 1 = row g (y 1) := Fin.ext (by rw [h01]; show (y 1).val + g.val * 1024 = g.val * 1024 + (y 1).val; omega)
  have e1 : i1 1 = y 1 := Fin.ext h1
  have e3 : i3 1 = y 1 := Fin.ext h3
  have e5 : i5 1 = y 1 := Fin.ext h5
  have e40 : i4 0 = y 0 := Fin.ext h40
  have e41 : i4 1 = y 1 := Fin.ext h41
  rw [hlow, ha, hd, hb, hh, hxp, e00, e01, e1, e3, e5, e40, e41]
  rfl

end Cert.Cell

end
-- ==== Proof.KernelBlock.lean ====
/-
  What one grid point leaves in its two output blocks, against the specification.

  The generated value leg already gives each output block as one entry-by-entry expression of the body's loads, with the
  rank-128 product entering whole. Here the loads are described entry by entry (the `x`, `h`, `c` row blocks of grid point
  `t`; the whole projections; the stacked up-projection; and the rows of the three coefficient arrays), the product is
  identified with the specification's `lowK`, each gate's sum with `preK`, and the two blocks with the new hidden state
  and the new cell state at batch row `t·256 + y₀`, column `y₁`.
-/
import proofs.«115530_j67027259621386_2_alg».proof.Proof.Gen.KernelIdeal.Value
import proofs.«115530_j67027259621386_2_alg».proof.Proof.KernelLow
import proofs.«115530_j67027259621386_2_alg».proof.Proof.KernelGate

noncomputable section

open scoped BigOperators

namespace Cert.Cell.Block

open Cert.KernelIdeal Cert.KernelIdeal.Gen Cert.KernelIdeal.Value Idealize.ShloMosaic Idealize.ShloMosaic.ValueIdx

section
variable (A : Args) (t : Fin 32)
  (P0 : Vec Ideal S256x512 .f32) (P1 : Vec Ideal S256x1024 .f32) (P2 : Vec Ideal S512x64 .bf16)
  (P3 : Vec Ideal S1024x64 .bf16) (P4 : Vec Ideal S128x4096 .bf16)
  (h0 : ∀ q : S256x512.Idx, P0 q = A.x (ix2 (brow t (q 0)) (q 1)))
  (h1 : ∀ q : S256x1024.Idx, P1 q = A.h (ix2 (brow t (q 0)) (q 1)))
  (h2 : ∀ q : S512x64.Idx, P2 q = A.ux q) (h3 : ∀ q : S1024x64.Idx, P3 q = A.uh q)
  (h4 : ∀ q : S128x4096.Idx, P4 q = upCat A (q 0) (q 1))
include h0 h1 h2 h3 h4

/-- The body's rank-128 product is the specification's, at the point's batch rows. -/
theorem low_eq (q : S256x4096.Idx) : k0_pay2 P0 P1 P2 P3 P4 q = lowK A (brow t (q 0)) (q 1) := by
  obtain ⟨p, j, rfl⟩ : ∃ (p : Fin 256) (j : Fin 4096), q = ix2 p j := ⟨q 0, q 1, eq_ix2 q⟩
  rw [Low.pay2_apply]
  unfold lowK
  refine Finset.sum_congr rfl fun s _ => ?_
  rw [h4]
  congr 1
  unfold projCat
  by_cases hs : s.val < 64
  · rw [dif_pos hs, dif_pos hs]
    unfold projX
    refine Finset.sum_congr rfl fun i _ => ?_
    rw [h0, h2]
  · rw [dif_neg hs, dif_neg hs]
    unfold projH
    refine Finset.sum_congr rfl fun i _ => ?_
    rw [h1, h3]

/-- The hidden-state block: entry `y` is the specification's new hidden state at batch row `t·256 + y₀`, column `y₁`. -/
theorem blockH (P5 P6 P7 P8 P9 P10 : Vec Ideal S1x1024 .f32) (P11 : Vec Ideal S256x1024 .f32)
    (P12 P13 P14 P15 P16 P17 : Vec Ideal S1x1024 .f32)
    (hP5 : ∀ q : S1x1024.Idx, P5 q = aK A 2 (q 1)) (hP6 : ∀ q : S1x1024.Idx, P6 q = dK A 2 (q 1)) (hP7 : ∀ q : S1x1024.Idx, P7 q = bK A 2 (q 1))
    (hP8 : ∀ q : S1x1024.Idx, P8 q = aK A 1 (q 1)) (hP9 : ∀ q : S1x1024.Idx, P9 q = dK A 1 (q 1)) (hP10 : ∀ q : S1x1024.Idx, P10 q = bK A 1 (q 1))
    (h11 : ∀ q : S256x1024.Idx, P11 q = A.c (ix2 (brow t (q 0)) (q 1)))
    (hP12 : ∀ q : S1x1024.Idx, P12 q = aK A 0 (q 1)) (hP13 : ∀ q : S1x1024.Idx, P13 q = dK A 0 (q 1)) (hP14 : ∀ q : S1x1024.Idx, P14 q = bK A 0 (q 1))
    (hP15 : ∀ q : S1x1024.Idx, P15 q = aK A 3 (q 1)) (hP16 : ∀ q : S1x1024.Idx, P16 q = dK A 3 (q 1)) (hP17 : ∀ q : S1x1024.Idx, P17 q = bK A 3 (q 1))
    (y : S256x1024.Idx) :
    E9 P0 P1 P2 P3 P4 P5 P6 P7 P8 P9 P10 P11 P12 P13 P14 P15 P16 P17 y = hK A (ix2 (brow t (y 0)) (y 1)) := by
  have L := low_eq A t P0 P1 P2 P3 P4 h0 h1 h2 h3 h4
  have G2 := (gate_eq A t 2 (k0_pay2 P0 P1 P2 P3 P4) L P5 P6 P7 hP5 hP6 hP7 P1 h1 y _ (xpad_eq A t P0 h0 (Cat9_2 P0 P1 P2 P3 P4 P5 P6 P7 P8 P9 P10 P11 P12 P13 P14 P15 P16 P17) rfl rfl y (csel9_2 y) rfl (ix9_2 y) rfl rfl) (ix9_0 y) rfl rfl (ix9_1 y) (ix9_3 y) (ix9_5 y) rfl rfl rfl (ix9_4 y) rfl rfl)
  have G1 := (gate_eq A t 1 (k0_pay2 P0 P1 P2 P3 P4) L P8 P9 P10 hP8 hP9 hP10 P1 h1 y _ (xpad_eq A t P0 h0 (Cat9_8 P0 P1 P2 P3 P4 P5 P6 P7 P8 P9 P10 P11 P12 P13 P14 P15 P16 P17) rfl rfl y (csel9_8 y) rfl (ix9_8 y) rfl rfl) (ix9_6 y) rfl rfl (ix9_7 y) (ix9_9 y) (ix9_11 y) rfl rfl rfl (ix9_10 y) rfl rfl)
  have G0 := (gate_eq A t 0 (k0_pay2 P0 P1 P2 P3 P4) L P12 P13 P14 hP12 hP13 hP14 P1 h1 y _ (xpad_eq A t P0 h0 (Cat9_15 P0 P1 P2 P3 P4 P5 P6 P7 P8 P9 P10 P11 P12 P13 P14 P15 P16 P17) rfl rfl y (csel9_15 y) rfl (ix9_15 y) rfl rfl) (ix9_13 y) rfl rfl (ix9_14 y) (ix9_16 y) (ix9_18 y) rfl rfl rfl (ix9_17 y) rfl rfl)
  have G3 := (gate_eq A t 3 (k0_pay2 P0 P1 P2 P3 P4) L P15 P16 P17 hP15 hP16 hP17 P1 h1 y _ (xpad_eq A t P0 h0 (Cat9_21 P0 P1 P2 P3 P4 P5 P6 P7 P8 P9 P10 P11 P12 P13 P14 P15 P16 P17) rfl rfl y (csel9_21 y) rfl (ix9_21 y) rfl rfl) (ix9_19 y) rfl rfl (ix9_20 y) (ix9_22 y) (ix9_24 y) rfl rfl rfl (ix9_23 y) rfl rfl)
  exact congrArg₂ (· * ·) (congrArg Ideal.logistic G2) (congrArg Ideal.tanh (congrArg₂ (· + ·)
    (congrArg₂ (· * ·) (congrArg Ideal.logistic G1) (h11 (ix9_12 y)))
    (congrArg₂ (· * ·) (congrArg Ideal.logistic G0) (congrArg Ideal.tanh G3))))

/-- The cell-state block: entry `y` is the specification's new cell state at batch row `t·256 + y₀`, column `y₁`. -/
theorem blockC (P5 P6 P7 : Vec Ideal S1x1024 .f32) (P8 : Vec Ideal S256x1024 .f32)
    (P9 P10 P11 P12 P13 P14 : Vec Ideal S1x1024 .f32)
    (hP5 : ∀ q : S1x1024.Idx, P5 q = aK A 1 (q 1)) (hP6 : ∀ q : S1x1024.Idx, P6 q = dK A 1 (q 1)) (hP7 : ∀ q : S1x1024.Idx, P7 q = bK A 1 (q 1))
    (h8 : ∀ q : S256x1024.Idx, P8 q = A.c (ix2 (brow t (q 0)) (q 1)))
    (hP9 : ∀ q : S1x1024.Idx, P9 q = aK A 0 (q 1)) (hP10 : ∀ q : S1x1024.Idx, P10 q = dK A 0 (q 1)) (hP11 : ∀ q : S1x1024.Idx, P11 q = bK A 0 (q 1))
    (hP12 : ∀ q : S1x1024.Idx, P12 q = aK A 3 (q 1)) (hP13 : ∀ q : S1x1024.Idx, P13 q = dK A 3 (q 1)) (hP14 : ∀ q : S1x1024.Idx, P14 q = bK A 3 (q 1))
    (y : S256x1024.Idx) :
    E10 P0 P1 P2 P3 P4 P5 P6 P7 P8 P9 P10 P11 P12 P13 P14 y = cK A (ix2 (brow t (y 0)) (y 1)) := by
  have L := low_eq A t P0 P1 P2 P3 P4 h0 h1 h2 h3 h4
  have G1 := (gate_eq A t 1 (k0_pay2 P0 P1 P2 P3 P4) L P5 P6 P7 hP5 hP6 hP7 P1 h1 y _ (xpad_eq A t P0 h0 (Cat10_2 P0 P1 P2 P3 P4 P5 P6 P7 P8 P9 P10 P11 P12 P13 P14) rfl rfl y (csel10_2 y) rfl (ix10_2 y) rfl rfl) (ix10_0 y) rfl rfl (ix10_1 y) (ix10_3 y) (ix10_5 y) rfl rfl rfl (ix10_4 y) rfl rfl)
  have G0 := (gate_eq A t 0 (k0_pay2 P0 P1 P2 P3 P4) L P9 P10 P11 hP9 hP10 hP11 P1 h1 y _ (xpad_eq A t P0 h0 (Cat10_9 P0 P1 P2 P3 P4 P5 P6 P7 P8 P9 P10 P11 P12 P13 P14) rfl rfl y (csel10_9 y) rfl (ix10_9 y) rfl rfl) (ix10_7 y) rfl rfl (ix10_8 y) (ix10_10 y) (ix10_12 y) rfl rfl rfl (ix10_11 y) rfl rfl)
  have G3 := (gate_eq A t 3 (k0_pay2 P0 P1 P2 P3 P4) L P12 P13 P14 hP12 hP13 hP14 P1 h1 y _ (xpad_eq A t P0 h0 (Cat10_15 P0 P1 P2 P3 P4 P5 P6 P7 P8 P9 P10 P11 P12 P13 P14) rfl rfl y (csel10_15 y) rfl (ix10_15 y) rfl rfl) (ix10_13 y) rfl rfl (ix10_14 y) (ix10_16 y) (ix10_18 y) rfl rfl rfl (ix10_17 y) rfl rfl)
  exact congrArg₂ (· + ·)
    (congrArg₂ (· * ·) (congrArg Ideal.logistic G1) (h8 (ix10_6 y)))
    (congrArg₂ (· * ·) (congrArg Ideal.logistic G0) (congrArg Ideal.tanh G3))

end

end Cert.Cell.Block

end
-- ==== Proof.KernelArgs.lean ====
/-
  The eleven argument arrays as the launch memory of a core holds them, gathered into the specification's record.
-/
import proofs.«115530_j67027259621386_2_alg».proof.KernelIdeal
import proofs.«115530_j67027259621386_2_alg».proof.Proof.Spec

noncomputable section

open scoped BigOperators

namespace Cert.Cell

open Cert.KernelIdeal Idealize.ShloMosaic Idealize.ShloMosaic.TcCoe Idealize.SL.Sem

/-- The arguments on core `c`, read off the memory `m` the kernel is launched from. -/
abbrev argsOf (m : (ℓ : Loc nD τ sig) → Buf (Elt Ideal) ℓ) (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10)⟩

end Cert.Cell

end
-- ==== Proof.KernelCover.lean ====
/-
  The two output windows' blocks cover their arrays.

  The grid has 32 points; point t writes back the block of rows t·256 … t·256 + 255 and all 1024 columns of each
  output array (block index (t, 0)). So the row r, column q entry of either 8192 × 1024 output lies in the block of
  point r / 256, and every point writes back.
-/
import proofs.«115530_j67027259621386_2_alg».proof.Proof.Gen.KernelIdeal.Value

noncomputable section

namespace Cert.Cell.KCover

open Cert.KernelIdeal Cert.KernelIdeal.Gen Idealize.ShloMosaic Idealize.ShloMosaic.TcCoe Idealize.SL.Sem

/-- The grid has 32 points. -/
theorem N_eq : cfg0.N = 32 := N_0

/-- The printed index maps of the two output windows, decided over the grid: point t's block index is (t, 0). -/
theorem idx_facts : ∀ t : Fin cfg0.N, win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- An index of the array is in point t's block iff each coordinate is in the block's range on its axis. -/
theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v25_0).slice (win0_9.rect t)).set ↔ _
  rw [View.set_slice_whole, Rect.mem_set_unit]
  exact Iff.rfl

/-- The same for the second output window. -/
theorem mem_blk10 (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v25_1).slice (win0_10.rect t)).set ↔ _
  rw [View.set_slice_whole, Rect.mem_set_unit]
  exact Iff.rfl

/-- The point whose block holds row r: r / 256. -/
def pointOf (i : S8192x1024.Idx) : Fin cfg0.N :=
  ⟨(i 0).val / 256, lt_of_lt_of_eq (show (i 0).val / 256 < 32 by have := (i 0).isLt; have h : (i 0).val < 8192 := this; omega) N_eq.symm⟩

/-- Every index of the first output array is in the block of a point that writes back. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨e0, e1, -, -⟩ := idx_facts (pointOf i)
  have q0 : win0_9.index (pointOf i) (0 : Fin 2) = (i 0).val / 256 := e0
  refine ⟨pointOf i, flush0_9 (pointOf i), ?_⟩
  rw [mem_blk9]
  intro a
  match a with
  | ⟨0, _⟩ => show win0_9.index (pointOf i) (0 : Fin 2) * 256 ≤ (i 0).val ∧ (i 0).val < win0_9.index (pointOf i) (0 : Fin 2) * 256 + 256; omega
  | ⟨1, _⟩ => show win0_9.index (pointOf i) (1 : Fin 2) * 1024 ≤ (i 1).val ∧ (i 1).val < win0_9.index (pointOf i) (1 : Fin 2) * 1024 + 1024; omega

/-- Every index of the second output array is in the block of a point that writes back. -/
theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  obtain ⟨-, -, e0, e1⟩ := idx_facts (pointOf i)
  have q0 : win0_10.index (pointOf i) (0 : Fin 2) = (i 0).val / 256 := e0
  refine ⟨pointOf i, flush0_10 (pointOf i), ?_⟩
  rw [mem_blk10]
  intro a
  match a with
  | ⟨0, _⟩ => show win0_10.index (pointOf i) (0 : Fin 2) * 256 ≤ (i 0).val ∧ (i 0).val < win0_10.index (pointOf i) (0 : Fin 2) * 256 + 256; omega
  | ⟨1, _⟩ => show win0_10.index (pointOf i) (1 : Fin 2) * 1024 ≤ (i 1).val ∧ (i 1).val < win0_10.index (pointOf i) (1 : Fin 2) * 1024 + 1024; omega

end Cert.Cell.KCover

end
-- ==== Proof.KernelValue.lean ====
/-
  From one grid point's blocks to the whole arrays.

  The kernel runs on a grid of 32 points. Point `t` reads rows `t·256 … t·256 + 255` of `x`, `h` and `c` and the whole of
  the six arrays the host prepared (the two down-projections, the stacked up-projection, and the three `4 × 1024`
  coefficient arrays, of which the body loads one row per gate), and writes rows `t·256 …` of the two results. Given what
  the six prepared arrays hold, each load is described entry by entry, so what point `t` writes back is block `t` of the
  specification's `hK` and `cK`; the blocks cover the arrays, so the arrays end holding `hK` and `cK`.
-/
import proofs.«115530_j67027259621386_2_alg».proof.Proof.Gen.KernelIdeal.Value
import proofs.«115530_j67027259621386_2_alg».proof.Proof.KernelBlock
import proofs.«115530_j67027259621386_2_alg».proof.Proof.KernelArgs
import proofs.«115530_j67027259621386_2_alg».proof.Proof.KernelCover
import Idealize.ShloMosaic.Lib.Pipeline.Value

noncomputable section

namespace Cert.Cell.KValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- A grid point as a number below 32. -/
def pt (t : Fin cfg0.N) : Fin 32 := ⟨t.val, Nat.lt_of_lt_of_eq t.isLt N_0⟩

theorem hz : (![0, 0] : Fin 2 → Nat) = fun _ => 0 := funext fun a => by fin_cases a <;> rfl

/-! ## Loads, over arbitrary blocks -/

theorem ld_r0_0 (X : Vec Ideal S256x512 .f32) : View.ld X r0_0 = X := View.ld_unit_zero (S := S256x512) hz _ X
theorem ld_r0_1 (X : Vec Ideal S256x1024 .f32) : View.ld X r0_1 = X := View.ld_unit_zero (S := S256x1024) hz _ X
theorem ld_r0_2 (X : Vec Ideal S512x64 .bf16) : View.ld X r0_2 = X := View.ld_unit_zero (S := S512x64) hz _ X
theorem ld_r0_3 (X : Vec Ideal S1024x64 .bf16) : View.ld X r0_3 = X := View.ld_unit_zero (S := S1024x64) hz _ X
theorem ld_r0_4 (X : Vec Ideal S128x4096 .bf16) : View.ld X r0_4 = X := View.ld_unit_zero (S := S128x4096) hz _ X

/-- A load through the rectangle of row 1 of a `4 × 1024` block reads that row. -/
theorem ld_r0_5 (X : Vec Ideal S4x1024 .f32) (q : S1x1024.Idx) : View.ld X r0_5 q = X (ix2 (1 : Fin 4) (q 1)) := by
  have hq : (q 0).val < 1 := (q 0).isLt
  show X (r0_5.emb q) = X (ix2 (1 : Fin 4) (q 1))
  refine congrArg X (funext fun a => Fin.ext ?_)
  match a with
  | ⟨0, _⟩ => show 1 + 1 * (q 0).val = 1; omega
  | ⟨1, _⟩ => show 0 + 1 * (q 1).val = (q 1).val; omega

/-- A load through the rectangle of row 0 of a `4 × 1024` block reads that row. -/
theorem ld_r0_6 (X : Vec Ideal S4x1024 .f32) (q : S1x1024.Idx) : View.ld X r0_6 q = X (ix2 (0 : Fin 4) (q 1)) := by
  have hq : (q 0).val < 1 := (q 0).isLt
  show X (r0_6.emb q) = X (ix2 (0 : Fin 4) (q 1))
  refine congrArg X (funext fun a => Fin.ext ?_)
  match a with
  | ⟨0, _⟩ => show 0 + 1 * (q 0).val = 0; omega
  | ⟨1, _⟩ => show 0 + 1 * (q 1).val = (q 1).val; omega

/-- A load through the rectangle of row 3 of a `4 × 1024` block reads that row. -/
theorem ld_r0_7 (X : Vec Ideal S4x1024 .f32) (q : S1x1024.Idx) : View.ld X r0_7 q = X (ix2 (3 : Fin 4) (q 1)) := by
  have hq : (q 0).val < 1 := (q 0).isLt
  show X (r0_7.emb q) = X (ix2 (3 : Fin 4) (q 1))
  refine congrArg X (funext fun a => Fin.ext ?_)
  match a with
  | ⟨0, _⟩ => show 3 + 1 * (q 0).val = 3; omega
  | ⟨1, _⟩ => show 0 + 1 * (q 1).val = (q 1).val; omega

/-- A load through the rectangle of row 2 of a `4 × 1024` block reads that row. -/
theorem ld_r0_8 (X : Vec Ideal S4x1024 .f32) (q : S1x1024.Idx) : View.ld X r0_8 q = X (ix2 (2 : Fin 4) (q 1)) := by
  have hq : (q 0).val < 1 := (q 0).isLt
  show X (r0_8.emb q) = X (ix2 (2 : Fin 4) (q 1))
  refine congrArg X (funext fun a => Fin.ext ?_)
  match a with
  | ⟨0, _⟩ => show 2 + 1 * (q 0).val = 2; omega
  | ⟨1, _⟩ => show 0 + 1 * (q 1).val = (q 1).val; omega

/-! ## The index maps, decided over the grid -/

/-- Windows 0, 1, 2, 9, 10 are at block `(t, 0)`; windows 3 … 8 at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The windows' blocks, entry by entry -/

variable (m : (ℓ : Loc nD τ sig) → Buf (Elt Ideal) ℓ) (ρ : Dev nD → PrngReg)

/-- Window 0's block at point `t` is rows `t·256 … t·256 + 255` of `x`. -/
theorem iblk0_apply (c : Dev nD) (t : Fin cfg0.N) (q : S256x512.Idx) :
    (iblk m c 0 t : Vec Ideal S256x512 .f32) q = (argsOf m c).x (ix2 (brow (pt t) (q 0)) (q 1)) := by
  obtain ⟨e00, e01, -⟩ := idx_facts t
  show V m c main_arg0 (((cfg0.win 0).blk t).view.emb q) = m ((c : Thread nD τ).loc main_arg0) (ix2 (brow (pt t) (q 0)) (q 1))
  rw [V_main_arg0]
  refine congrArg (m ((c : Thread nD τ).loc main_arg0)) (funext fun a => Fin.ext ?_)
  match a with
  | ⟨0, _⟩ => show win0_0.index t (0 : Fin 2) * 256 + 1 * (q 0).val = t.val * 256 + (q 0).val; rw [e00]; omega
  | ⟨1, _⟩ => show win0_0.index t (1 : Fin 2) * 512 + 1 * (q 1).val = (q 1).val; rw [e01]; omega

/-- Window 1's block at point `t` is rows `t·256 … t·256 + 255` of `h`. -/
theorem iblk1_apply (c : Dev nD) (t : Fin cfg0.N) (q : S256x1024.Idx) :
    (iblk m c 1 t : Vec Ideal S256x1024 .f32) q = (argsOf m c).h (ix2 (brow (pt t) (q 0)) (q 1)) := by
  obtain ⟨-, -, e10, e11, -⟩ := idx_facts t
  show V m c main_arg1 (((cfg0.win 1).blk t).view.emb q) = m ((c : Thread nD τ).loc main_arg1) (ix2 (brow (pt t) (q 0)) (q 1))
  rw [V_main_arg1]
  refine congrArg (m ((c : Thread nD τ).loc main_arg1)) (funext fun a => Fin.ext ?_)
  match a with
  | ⟨0, _⟩ => show win0_1.index t (0 : Fin 2) * 256 + 1 * (q 0).val = t.val * 256 + (q 0).val; rw [e10]; omega
  | ⟨1, _⟩ => show win0_1.index t (1 : Fin 2) * 1024 + 1 * (q 1).val = (q 1).val; rw [e11]; omega

/-- Window 2's block at point `t` is rows `t·256 … t·256 + 255` of `c`. -/
theorem iblk2_apply (c : Dev nD) (t : Fin cfg0.N) (q : S256x1024.Idx) :
    (iblk m c 2 t : Vec Ideal S256x1024 .f32) q = (argsOf m c).c (ix2 (brow (pt t) (q 0)) (q 1)) := by
  obtain ⟨-, -, -, -, e20, e21, -⟩ := idx_facts t
  show V m c main_arg2 (((cfg0.win 2).blk t).view.emb q) = m ((c : Thread nD τ).loc main_arg2) (ix2 (brow (pt t) (q 0)) (q 1))
  rw [V_main_arg2]
  refine congrArg (m ((c : Thread nD τ).loc main_arg2)) (funext fun a => Fin.ext ?_)
  match a with
  | ⟨0, _⟩ => show win0_2.index t (0 : Fin 2) * 256 + 1 * (q 0).val = t.val * 256 + (q 0).val; rw [e20]; omega
  | ⟨1, _⟩ => show win0_2.index t (1 : Fin 2) * 1024 + 1 * (q 1).val = (q 1).val; rw [e21]; omega

/-- Window 3's block is its whole array at every point. -/
theorem iblk3_apply (c : Dev nD) (t : Fin cfg0.N) (q : S512x64.Idx) :
    (iblk m c 3 t : Vec Ideal S512x64 .bf16) q = (V m c main_v0 : S512x64.Idx → EReal) q := by
  obtain ⟨-, -, -, -, -, -, e30, e31, -⟩ := idx_facts t
  show V m c main_v0 (((cfg0.win 3).blk t).view.emb q) = V m c main_v0 q
  refine congrArg (V m c main_v0) (funext fun a => Fin.ext ?_)
  match a with
  | ⟨0, _⟩ => show win0_3.index t (0 : Fin 2) * 512 + 1 * (q 0).val = (q 0).val; rw [e30]; omega
  | ⟨1, _⟩ => show win0_3.index t (1 : Fin 2) * 64 + 1 * (q 1).val = (q 1).val; rw [e31]; omega

/-- Window 4's block is its whole array at every point. -/
theorem iblk4_apply (c : Dev nD) (t : Fin cfg0.N) (q : S1024x64.Idx) :
    (iblk m c 4 t : Vec Ideal S1024x64 .bf16) q = (V m c main_v1 : S1024x64.Idx → EReal) q := by
  obtain ⟨-, -, -, -, -, -, -, -, e40, e41, -⟩ := idx_facts t
  show V m c main_v1 (((cfg0.win 4).blk t).view.emb q) = V m c main_v1 q
  refine congrArg (V m c main_v1) (funext fun a => Fin.ext ?_)
  match a with
  | ⟨0, _⟩ => show win0_4.index t (0 : Fin 2) * 1024 + 1 * (q 0).val = (q 0).val; rw [e40]; omega
  | ⟨1, _⟩ => show win0_4.index t (1 : Fin 2) * 64 + 1 * (q 1).val = (q 1).val; rw [e41]; omega

/-- Window 5's block is its whole array at every point. -/
theorem iblk5_apply (c : Dev nD) (t : Fin cfg0.N) (q : S128x4096.Idx) :
    (iblk m c 5 t : Vec Ideal S128x4096 .bf16) q = (V m c main_v5 : S128x4096.Idx → EReal) q := by
  obtain ⟨-, -, -, -, -, -, -, -, -, -, e50, e51, -⟩ := idx_facts t
  show V m c main_v5 (((cfg0.win 5).blk t).view.emb q) = V m c main_v5 q
  refine congrArg (V m c main_v5) (funext fun a => Fin.ext ?_)
  match a with
  | ⟨0, _⟩ => show win0_5.index t (0 : Fin 2) * 128 + 1 * (q 0).val = (q 0).val; rw [e50]; omega
  | ⟨1, _⟩ => show win0_5.index t (1 : Fin 2) * 4096 + 1 * (q 1).val = (q 1).val; rw [e51]; omega

/-- Window 6's block is its whole array at every point. -/
theorem iblk6_apply (c : Dev nD) (t : Fin cfg0.N) (q : S4x1024.Idx) :
    (iblk m c 6 t : Vec Ideal S4x1024 .f32) q = (V m c main_v20 : S4x1024.Idx → EReal) q := by
  obtain ⟨-, -, -, -, -, -, -, -, -, -, -, -, e60, e61, -⟩ := idx_facts t
  show V m c main_v20 (((cfg0.win 6).blk t).view.emb q) = V m c main_v20 q
  refine congrArg (V m c main_v20) (funext fun a => Fin.ext ?_)
  match a with
  | ⟨0, _⟩ => show win0_6.index t (0 : Fin 2) * 4 + 1 * (q 0).val = (q 0).val; rw [e60]; omega
  | ⟨1, _⟩ => show win0_6.index t (1 : Fin 2) * 1024 + 1 * (q 1).val = (q 1).val; rw [e61]; omega

/-- Window 7's block is its whole array at every point. -/
theorem iblk7_apply (c : Dev nD) (t : Fin cfg0.N) (q : S4x1024.Idx) :
    (iblk m c 7 t : Vec Ideal S4x1024 .f32) q = (V m c main_v22 : S4x1024.Idx → EReal) q := by
  obtain ⟨-, -, -, -, -, -, -, -, -, -, -, -, -, -, e70, e71, -⟩ := idx_facts t
  show V m c main_v22 (((cfg0.win 7).blk t).view.emb q) = V m c main_v22 q
  refine congrArg (V m c main_v22) (funext fun a => Fin.ext ?_)
  match a with
  | ⟨0, _⟩ => show win0_7.index t (0 : Fin 2) * 4 + 1 * (q 0).val = (q 0).val; rw [e70]; omega
  | ⟨1, _⟩ => show win0_7.index t (1 : Fin 2) * 1024 + 1 * (q 1).val = (q 1).val; rw [e71]; omega

/-- Window 8's block is its whole array at every point. -/
theorem iblk8_apply (c : Dev nD) (t : Fin cfg0.N) (q : S4x1024.Idx) :
    (iblk m c 8 t : Vec Ideal S4x1024 .f32) q = (V m c main_v24 : S4x1024.Idx → EReal) q := by
  obtain ⟨-, -, -, -, -, -, -, -, -, -, -, -, -, -, -, -, e80, e81, -⟩ := idx_facts t
  show V m c main_v24 (((cfg0.win 8).blk t).view.emb q) = V m c main_v24 q
  refine congrArg (V m c main_v24) (funext fun a => Fin.ext ?_)
  match a with
  | ⟨0, _⟩ => show win0_8.index t (0 : Fin 2) * 4 + 1 * (q 0).val = (q 0).val; rw [e80]; omega
  | ⟨1, _⟩ => show win0_8.index t (1 : Fin 2) * 1024 + 1 * (q 1).val = (q 1).val; rw [e81]; omega

/-! ## The body's loads at point `t`, entry by entry -/

theorem x_ld (c : Dev nD) (t : Fin cfg0.N) (q : S256x512.Idx) :
    View.ld (iblk m c 0 t : Vec Ideal S256x512 .f32) r0_0 q = (argsOf m c).x (ix2 (brow (pt t) (q 0)) (q 1)) :=
  (congrFun (ld_r0_0 (iblk m c 0 t : Vec Ideal S256x512 .f32)) q).trans (iblk0_apply m c t q)

theorem h_ld (c : Dev nD) (t : Fin cfg0.N) (q : S256x1024.Idx) :
    View.ld (iblk m c 1 t : Vec Ideal S256x1024 .f32) r0_1 q = (argsOf m c).h (ix2 (brow (pt t) (q 0)) (q 1)) :=
  (congrFun (ld_r0_1 (iblk m c 1 t : Vec Ideal S256x1024 .f32)) q).trans (iblk1_apply m c t q)

theorem c_ld (c : Dev nD) (t : Fin cfg0.N) (q : S256x1024.Idx) :
    View.ld (iblk m c 2 t : Vec Ideal S256x1024 .f32) r0_1 q = (argsOf m c).c (ix2 (brow (pt t) (q 0)) (q 1)) :=
  (congrFun (ld_r0_1 (iblk m c 2 t : Vec Ideal S256x1024 .f32)) q).trans (iblk2_apply m c t q)

section Prepared

/-! What the six arrays the host prepared hold, taken as given. -/
variable (hux : ∀ (c : Dev nD) (z : S512x64.Idx), (V m c main_v0 : S512x64.Idx → EReal) z = (argsOf m c).ux z)
  (huh : ∀ (c : Dev nD) (z : S1024x64.Idx), (V m c main_v1 : S1024x64.Idx → EReal) z = (argsOf m c).uh z)
  (hw : ∀ (c : Dev nD) (z : S128x4096.Idx), (V m c main_v5 : S128x4096.Idx → EReal) z = upCat (argsOf m c) (z 0) (z 1))
  (ha : ∀ (c : Dev nD) (z : S4x1024.Idx), (V m c main_v20 : S4x1024.Idx → EReal) z = aK (argsOf m c) (z 0) (z 1))
  (hd : ∀ (c : Dev nD) (z : S4x1024.Idx), (V m c main_v22 : S4x1024.Idx → EReal) z = dK (argsOf m c) (z 0) (z 1))
  (hb : ∀ (c : Dev nD) (z : S4x1024.Idx), (V m c main_v24 : S4x1024.Idx → EReal) z = bK (argsOf m c) (z 0) (z 1))

include hux in
theorem ux_ld (c : Dev nD) (t : Fin cfg0.N) (q : S512x64.Idx) :
    View.ld (iblk m c 3 t : Vec Ideal S512x64 .bf16) r0_2 q = (argsOf m c).ux q :=
  (congrFun (ld_r0_2 (iblk m c 3 t : Vec Ideal S512x64 .bf16)) q).trans ((iblk3_apply m c t q).trans (hux c q))

include huh in
theorem uh_ld (c : Dev nD) (t : Fin cfg0.N) (q : S1024x64.Idx) :
    View.ld (iblk m c 4 t : Vec Ideal S1024x64 .bf16) r0_3 q = (argsOf m c).uh q :=
  (congrFun (ld_r0_3 (iblk m c 4 t : Vec Ideal S1024x64 .bf16)) q).trans ((iblk4_apply m c t q).trans (huh c q))

include hw in
theorem w_ld (c : Dev nD) (t : Fin cfg0.N) (q : S128x4096.Idx) :
    View.ld (iblk m c 5 t : Vec Ideal S128x4096 .bf16) r0_4 q = upCat (argsOf m c) (q 0) (q 1) :=
  (congrFun (ld_r0_4 (iblk m c 5 t : Vec Ideal S128x4096 .bf16)) q).trans ((iblk5_apply m c t q).trans (hw c q))

section A
include ha
theorem a_row0 (c : Dev nD) (t : Fin cfg0.N) (q : S1x1024.Idx) :
    View.ld (iblk m c 6 t : Vec Ideal S4x1024 .f32) r0_6 q = aK (argsOf m c) 0 (q 1) :=
  (ld_r0_6 (iblk m c 6 t : Vec Ideal S4x1024 .f32) q).trans ((iblk6_apply m c t (ix2 (0 : Fin 4) (q 1))).trans (ha c (ix2 (0 : Fin 4) (q 1))))
theorem a_row1 (c : Dev nD) (t : Fin cfg0.N) (q : S1x1024.Idx) :
    View.ld (iblk m c 6 t : Vec Ideal S4x1024 .f32) r0_5 q = aK (argsOf m c) 1 (q 1) :=
  (ld_r0_5 (iblk m c 6 t : Vec Ideal S4x1024 .f32) q).trans ((iblk6_apply m c t (ix2 (1 : Fin 4) (q 1))).trans (ha c (ix2 (1 : Fin 4) (q 1))))
theorem a_row2 (c : Dev nD) (t : Fin cfg0.N) (q : S1x1024.Idx) :
    View.ld (iblk m c 6 t : Vec Ideal S4x1024 .f32) r0_8 q = aK (argsOf m c) 2 (q 1) :=
  (ld_r0_8 (iblk m c 6 t : Vec Ideal S4x1024 .f32) q).trans ((iblk6_apply m c t (ix2 (2 : Fin 4) (q 1))).trans (ha c (ix2 (2 : Fin 4) (q 1))))
theorem a_row3 (c : Dev nD) (t : Fin cfg0.N) (q : S1x1024.Idx) :
    View.ld (iblk m c 6 t : Vec Ideal S4x1024 .f32) r0_7 q = aK (argsOf m c) 3 (q 1) :=
  (ld_r0_7 (iblk m c 6 t : Vec Ideal S4x1024 .f32) q).trans ((iblk6_apply m c t (ix2 (3 : Fin 4) (q 1))).trans (ha c (ix2 (3 : Fin 4) (q 1))))
end A

section D
include hd
theorem d_row0 (c : Dev nD) (t : Fin cfg0.N) (q : S1x1024.Idx) :
    View.ld (iblk m c 7 t : Vec Ideal S4x1024 .f32) r0_6 q = dK (argsOf m c) 0 (q 1) :=
  (ld_r0_6 (iblk m c 7 t : Vec Ideal S4x1024 .f32) q).trans ((iblk7_apply m c t (ix2 (0 : Fin 4) (q 1))).trans (hd c (ix2 (0 : Fin 4) (q 1))))

theorem d_row1 (c : Dev nD) (t : Fin cfg0.N) (q : S1x1024.Idx) :
    View.ld (iblk m c 7 t : Vec Ideal S4x1024 .f32) r0_5 q = dK (argsOf m c) 1 (q 1) :=
  (ld_r0_5 (iblk m c 7 t : Vec Ideal S4x1024 .f32) q).trans ((iblk7_apply m c t (ix2 (1 : Fin 4) (q 1))).trans (hd c (ix2 (1 : Fin 4) (q 1))))

theorem d_row2 (c : Dev nD) (t : Fin cfg0.N) (q : S1x1024.Idx) :
    View.ld (iblk m c 7 t : Vec Ideal S4x1024 .f32) r0_8 q = dK (argsOf m c) 2 (q 1) :=
  (ld_r0_8 (iblk m c 7 t : Vec Ideal S4x1024 .f32) q).trans ((iblk7_apply m c t (ix2 (2 : Fin 4) (q 1))).trans (hd c (ix2 (2 : Fin 4) (q 1))))

theorem d_row3 (c : Dev nD) (t : Fin cfg0.N) (q : S1x1024.Idx) :
    View.ld (iblk m c 7 t : Vec Ideal S4x1024 .f32) r0_7 q = dK (argsOf m c) 3 (q 1) :=
  (ld_r0_7 (iblk m c 7 t : Vec Ideal S4x1024 .f32) q).trans ((iblk7_apply m c t (ix2 (3 : Fin 4) (q 1))).trans (hd c (ix2 (3 : Fin 4) (q 1))))

end D

section Bias
include hb
theorem b_row0 (c : Dev nD) (t : Fin cfg0.N) (q : S1x1024.Idx) :
    View.ld (iblk m c 8 t : Vec Ideal S4x1024 .f32) r0_6 q = bK (argsOf m c) 0 (q 1) :=
  (ld_r0_6 (iblk m c 8 t : Vec Ideal S4x1024 .f32) q).trans ((iblk8_apply m c t (ix2 (0 : Fin 4) (q 1))).trans (hb c (ix2 (0 : Fin 4) (q 1))))

theorem b_row1 (c : Dev nD) (t : Fin cfg0.N) (q : S1x1024.Idx) :
    View.ld (iblk m c 8 t : Vec Ideal S4x1024 .f32) r0_5 q = bK (argsOf m c) 1 (q 1) :=
  (ld_r0_5 (iblk m c 8 t : Vec Ideal S4x1024 .f32) q).trans ((iblk8_apply m c t (ix2 (1 : Fin 4) (q 1))).trans (hb c (ix2 (1 : Fin 4) (q 1))))

theorem b_row2 (c : Dev nD) (t : Fin cfg0.N) (q : S1x1024.Idx) :
    View.ld (iblk m c 8 t : Vec Ideal S4x1024 .f32) r0_8 q = bK (argsOf m c) 2 (q 1) :=
  (ld_r0_8 (iblk m c 8 t : Vec Ideal S4x1024 .f32) q).trans ((iblk8_apply m c t (ix2 (2 : Fin 4) (q 1))).trans (hb c (ix2 (2 : Fin 4) (q 1))))

theorem b_row3 (c : Dev nD) (t : Fin cfg0.N) (q : S1x1024.Idx) :
    View.ld (iblk m c 8 t : Vec Ideal S4x1024 .f32) r0_7 q = bK (argsOf m c) 3 (q 1) :=
  (ld_r0_7 (iblk m c 8 t : Vec Ideal S4x1024 .f32) q).trans ((iblk8_apply m c t (ix2 (3 : Fin 4) (q 1))).trans (hb c (ix2 (3 : Fin 4) (q 1))))
end Bias

include hux huh hw ha hd hb

/-! ## What point `t` writes back -/

/-- Point `t` writes block `t` of `hK` to the first result. -/
theorem flushedH_eq (c : Dev nD) (t : Fin cfg0.N) :
    (dats m 0 c).flushed 9 t = ((cfg0.win 9).blk t).view.read (Elt Ideal) (hK (argsOf m c)) := by
  rw [Value.flushed9]
  funext y
  show out0_9 (iblk m c 0 t) (iblk m c 1 t) (iblk m c 2 t) (iblk m c 3 t) (iblk m c 4 t) (iblk m c 5 t) (iblk m c 6 t) (iblk m c 7 t) (iblk m c 8 t) y
    = hK (argsOf m c) (((cfg0.win 9).blk t).view.emb y)
  unfold out0_9
  obtain ⟨-, -, -, -, -, -, -, -, -, -, -, -, -, -, -, -, -, -, e90, e91, -⟩ := idx_facts t
  refine (canon9_eq (View.ld (iblk m c 0 t : Vec Ideal S256x512 .f32) r0_0)
      (View.ld (iblk m c 1 t : Vec Ideal S256x1024 .f32) r0_1)
      (View.ld (iblk m c 3 t : Vec Ideal S512x64 .bf16) r0_2)
      (View.ld (iblk m c 4 t : Vec Ideal S1024x64 .bf16) r0_3)
      (View.ld (iblk m c 5 t : Vec Ideal S128x4096 .bf16) r0_4)
      (View.ld (iblk m c 6 t : Vec Ideal S4x1024 .f32) r0_8)
      (View.ld (iblk m c 7 t : Vec Ideal S4x1024 .f32) r0_8)
      (View.ld (iblk m c 8 t : Vec Ideal S4x1024 .f32) r0_8)
      (View.ld (iblk m c 6 t : Vec Ideal S4x1024 .f32) r0_5)
      (View.ld (iblk m c 7 t : Vec Ideal S4x1024 .f32) r0_5)
      (View.ld (iblk m c 8 t : Vec Ideal S4x1024 .f32) r0_5)
      (View.ld (iblk m c 2 t : Vec Ideal S256x1024 .f32) r0_1)
      (View.ld (iblk m c 6 t : Vec Ideal S4x1024 .f32) r0_6)
      (View.ld (iblk m c 7 t : Vec Ideal S4x1024 .f32) r0_6)
      (View.ld (iblk m c 8 t : Vec Ideal S4x1024 .f32) r0_6)
      (View.ld (iblk m c 6 t : Vec Ideal S4x1024 .f32) r0_7)
      (View.ld (iblk m c 7 t : Vec Ideal S4x1024 .f32) r0_7)
      (View.ld (iblk m c 8 t : Vec Ideal S4x1024 .f32) r0_7) y).trans ?_
  refine (Block.blockH (argsOf m c) (pt t) (View.ld (iblk m c 0 t : Vec Ideal S256x512 .f32) r0_0)
      (View.ld (iblk m c 1 t : Vec Ideal S256x1024 .f32) r0_1)
      (View.ld (iblk m c 3 t : Vec Ideal S512x64 .bf16) r0_2)
      (View.ld (iblk m c 4 t : Vec Ideal S1024x64 .bf16) r0_3)
      (View.ld (iblk m c 5 t : Vec Ideal S128x4096 .bf16) r0_4)
      (x_ld m c t) (h_ld m c t) (ux_ld m hux c t) (uh_ld m huh c t) (w_ld m hw c t)
      (View.ld (iblk m c 6 t : Vec Ideal S4x1024 .f32) r0_8)
      (View.ld (iblk m c 7 t : Vec Ideal S4x1024 .f32) r0_8)
      (View.ld (iblk m c 8 t : Vec Ideal S4x1024 .f32) r0_8)
      (View.ld (iblk m c 6 t : Vec Ideal S4x1024 .f32) r0_5)
      (View.ld (iblk m c 7 t : Vec Ideal S4x1024 .f32) r0_5)
      (View.ld (iblk m c 8 t : Vec Ideal S4x1024 .f32) r0_5)
      (View.ld (iblk m c 2 t : Vec Ideal S256x1024 .f32) r0_1)
      (View.ld (iblk m c 6 t : Vec Ideal S4x1024 .f32) r0_6)
      (View.ld (iblk m c 7 t : Vec Ideal S4x1024 .f32) r0_6)
      (View.ld (iblk m c 8 t : Vec Ideal S4x1024 .f32) r0_6)
      (View.ld (iblk m c 6 t : Vec Ideal S4x1024 .f32) r0_7)
      (View.ld (iblk m c 7 t : Vec Ideal S4x1024 .f32) r0_7)
      (View.ld (iblk m c 8 t : Vec Ideal S4x1024 .f32) r0_7)
      (a_row2 m ha c t) (d_row2 m hd c t) (b_row2 m hb c t) (a_row1 m ha c t) (d_row1 m hd c t) (b_row1 m hb c t) (c_ld m c t) (a_row0 m ha c t) (d_row0 m hd c t) (b_row0 m hb c t) (a_row3 m ha c t) (d_row3 m hd c t) (b_row3 m hb c t) y).trans ?_
  refine congrArg (hK (argsOf m c)) (funext fun a => Fin.ext ?_)
  match a with
  | ⟨0, _⟩ => show t.val * 256 + (y 0).val = win0_9.index t (0 : Fin 2) * 256 + 1 * (y 0).val; rw [e90]; omega
  | ⟨1, _⟩ => show (y 1).val = win0_9.index t (1 : Fin 2) * 1024 + 1 * (y 1).val; rw [e91]; omega

/-- Point `t` writes block `t` of `cK` to the second result. -/
theorem flushedC_eq (c : Dev nD) (t : Fin cfg0.N) :
    (dats m 0 c).flushed 10 t = ((cfg0.win 10).blk t).view.read (Elt Ideal) (cK (argsOf m c)) := by
  rw [Value.flushed10]
  funext y
  show out0_10 (iblk m c 0 t) (iblk m c 1 t) (iblk m c 2 t) (iblk m c 3 t) (iblk m c 4 t) (iblk m c 5 t) (iblk m c 6 t) (iblk m c 7 t) (iblk m c 8 t) y
    = cK (argsOf m c) (((cfg0.win 10).blk t).view.emb y)
  unfold out0_10
  obtain ⟨-, -, -, -, -, -, -, -, -, -, -, -, -, -, -, -, -, -, -, -, e100, e101⟩ := idx_facts t
  refine (canon10_eq (View.ld (iblk m c 0 t : Vec Ideal S256x512 .f32) r0_0)
      (View.ld (iblk m c 1 t : Vec Ideal S256x1024 .f32) r0_1)
      (View.ld (iblk m c 3 t : Vec Ideal S512x64 .bf16) r0_2)
      (View.ld (iblk m c 4 t : Vec Ideal S1024x64 .bf16) r0_3)
      (View.ld (iblk m c 5 t : Vec Ideal S128x4096 .bf16) r0_4)
      (View.ld (iblk m c 6 t : Vec Ideal S4x1024 .f32) r0_5)
      (View.ld (iblk m c 7 t : Vec Ideal S4x1024 .f32) r0_5)
      (View.ld (iblk m c 8 t : Vec Ideal S4x1024 .f32) r0_5)
      (View.ld (iblk m c 2 t : Vec Ideal S256x1024 .f32) r0_1)
      (View.ld (iblk m c 6 t : Vec Ideal S4x1024 .f32) r0_6)
      (View.ld (iblk m c 7 t : Vec Ideal S4x1024 .f32) r0_6)
      (View.ld (iblk m c 8 t : Vec Ideal S4x1024 .f32) r0_6)
      (View.ld (iblk m c 6 t : Vec Ideal S4x1024 .f32) r0_7)
      (View.ld (iblk m c 7 t : Vec Ideal S4x1024 .f32) r0_7)
      (View.ld (iblk m c 8 t : Vec Ideal S4x1024 .f32) r0_7) y).trans ?_
  refine (Block.blockC (argsOf m c) (pt t) (View.ld (iblk m c 0 t : Vec Ideal S256x512 .f32) r0_0)
      (View.ld (iblk m c 1 t : Vec Ideal S256x1024 .f32) r0_1)
      (View.ld (iblk m c 3 t : Vec Ideal S512x64 .bf16) r0_2)
      (View.ld (iblk m c 4 t : Vec Ideal S1024x64 .bf16) r0_3)
      (View.ld (iblk m c 5 t : Vec Ideal S128x4096 .bf16) r0_4)
      (x_ld m c t) (h_ld m c t) (ux_ld m hux c t) (uh_ld m huh c t) (w_ld m hw c t)
      (View.ld (iblk m c 6 t : Vec Ideal S4x1024 .f32) r0_5)
      (View.ld (iblk m c 7 t : Vec Ideal S4x1024 .f32) r0_5)
      (View.ld (iblk m c 8 t : Vec Ideal S4x1024 .f32) r0_5)
      (View.ld (iblk m c 2 t : Vec Ideal S256x1024 .f32) r0_1)
      (View.ld (iblk m c 6 t : Vec Ideal S4x1024 .f32) r0_6)
      (View.ld (iblk m c 7 t : Vec Ideal S4x1024 .f32) r0_6)
      (View.ld (iblk m c 8 t : Vec Ideal S4x1024 .f32) r0_6)
      (View.ld (iblk m c 6 t : Vec Ideal S4x1024 .f32) r0_7)
      (View.ld (iblk m c 7 t : Vec Ideal S4x1024 .f32) r0_7)
      (View.ld (iblk m c 8 t : Vec Ideal S4x1024 .f32) r0_7)
      (a_row1 m ha c t) (d_row1 m hd c t) (b_row1 m hb c t) (c_ld m c t) (a_row0 m ha c t) (d_row0 m hd c t) (b_row0 m hb c t) (a_row3 m ha c t) (d_row3 m hd c t) (b_row3 m hb c t) y).trans ?_
  refine congrArg (cK (argsOf m c)) (funext fun a => Fin.ext ?_)
  match a with
  | ⟨0, _⟩ => show t.val * 256 + (y 0).val = win0_10.index t (0 : Fin 2) * 256 + 1 * (y 0).val; rw [e100]; omega
  | ⟨1, _⟩ => show (y 1).val = win0_10.index t (1 : Fin 2) * 1024 + 1 * (y 1).val; rw [e101]; omega

/-! ## The arrays after the run -/

/-- The first result ends holding `hK`: every point writes its block of it, and the blocks cover the array. -/
theorem finalH (c : Dev nD) : (dats m 0 c).arrAt 9 cfg0.N = hK (argsOf m c) :=
  (dats m 0 c).arrAt_eq_of_cover 9 (hK (argsOf m c)) (fun t _ => flushedH_eq m hux huh hw ha hd hb c t) KCover.cover9

/-- The second result ends holding `cK`. -/
theorem finalC (c : Dev nD) : (dats m 0 c).arrAt 10 cfg0.N = cK (argsOf m c) :=
  (dats m 0 c).arrAt_eq_of_cover 10 (cK (argsOf m c)) (fun t _ => flushedC_eq m hux huh hw ha hd hb c t) KCover.cover10

/-- The run, read: the two results at the specification's fused arrangement of the arguments, the arguments unchanged. -/
theorem run : θ_run defs (onTc (τ := τ) (main (F := Ideal))) ⟨m, fun _ => 0, ρ⟩ fun r => ∀ c : Dev nD,
      r.2.mem ((c : Thread nD τ).loc main_v25_0) = hK (argsOf m c)
      ∧ r.2.mem ((c : Thread nD τ).loc main_v25_1) = cK (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (finalH m hux huh hw ha hd hb c), (h c).2.1.trans (finalC m hux huh hw ha hd hb c), (h c).2.2⟩)
    (Value.run_blocks m ρ)

end Prepared

end Cert.Cell.KValue

end
-- ==== Proof.KernelHost.lean ====
/-
  What the host operations before the pallas_call leave in the six arrays the kernel's constant windows stage.

  Before the region the program casts the two down-projections to bf16 (the identity on extended reals), stacks the two
  transposed up-projections into one 128 × 4096 array, forms `dx` padded minus the padded diagonal of `ux·vxᵀ`, forms
  `dh` minus the diagonal of `uh·vhᵀ`, and adds the two biases and reshapes them to 4 × 1024. Each array the region
  finds is first written as the composed term of those operations over the arguments, then read at an index.
-/
import proofs.«115530_j67027259621386_2_alg».proof.Proof.Gen.KernelIdeal.Frame
import proofs.«115530_j67027259621386_2_alg».proof.Proof.Gen.ReferenceIdeal.Read
import proofs.«115530_j67027259621386_2_alg».proof.Proof.KernelArgs
import Idealize.ShloMosaic.Lib.StableHlo.Run

noncomputable section

open scoped BigOperators

namespace Cert.Cell.Host

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ) (c : Dev nD)

/-- Unfold the region-entry contents to the fold of the host operations and compute it at one buffer. -/
local macro "host_stage" : tactic =>
  `(tactic| (dsimp only [Gen.V]
             simp only [hostOps0, hostOps0_1, hostOps0_2, hostOps0_3, hostOps0_4, List.flatten_cons, List.flatten_nil,
               List.append_nil, List.cons_append, List.nil_append]
             after_results
             try rfl))

/-- The value the two pads fill with: the integer constant 0 converted to a float. -/
abbrev padZero : S_.Idx → EReal := sitofp (F := Ideal) .f32 (constantI S_ 32 0#32)

set_option maxHeartbeats 4000000 in
/-- `ux` cast to bf16. -/
theorem stage_v0 : (V m c main_v0 : S512x64.Idx → EReal)
    = truncf (F := Ideal) (s := S512x64) .bf16 (m ((c : Thread nD τ).loc main_arg3)) bitsLt_bf16_f32 := by host_stage

set_option maxHeartbeats 4000000 in
/-- `uh` cast to bf16. -/
theorem stage_v1 : (V m c main_v1 : S1024x64.Idx → EReal)
    = truncf (F := Ideal) (s := S1024x64) .bf16 (m ((c : Thread nD τ).loc main_arg4)) bitsLt_bf16_f32 := by host_stage

set_option maxHeartbeats 4000000 in
/-- The two transposed up-projections stacked, cast to bf16. -/
theorem stage_v5 : (V m c main_v5 : S128x4096.Idx → EReal)
    = truncf (F := Ideal) (s := S128x4096) .bf16 (concatenate S128x4096 0
        [⟨S64x4096, transpose S64x4096 [1, 0] (m ((c : Thread nD τ).loc main_arg5)) transposes_S4096x64_S64x4096_1_0⟩,
         ⟨S64x4096, transpose S64x4096 [1, 0] (m ((c : Thread nD τ).loc main_arg6)) transposes_S4096x64_S64x4096_1_0⟩]
        concatenates_S64x4096_S64x4096_S128x4096_d0) bitsLt_bf16_f32 := by host_stage

set_option maxHeartbeats 4000000 in
/-- `dx` padded and repeated over the four gates, minus the padded diagonal of `ux·vxᵀ`. -/
theorem stage_v20 : (V m c main_v20 : S4x1024.Idx → EReal)
    = subf (F := Ideal) (s := S4x1024) (φ := .f32) (broadcastInDim S4x1024 ![0, 1] bcast_S1x1024_S4x1024_0_1
        (pad S1x1024 ![0, 0] ![0, 512] ![0, 0] ((m ((c : Thread nD τ).loc main_arg9)) : S1x512.Idx → EReal) padZero pads_S1x512_S1x1024_000_05120 h_S_))
      (pad S4x1024 ![0, 0] ![0, 512] ![0, 0]
        (Cert.ReferenceIdeal.Read.val_main_v17 (F := Ideal) (m ((c : Thread nD τ).loc main_arg3)) (m ((c : Thread nD τ).loc main_arg5)))
        padZero pads_S4x512_S4x1024_000_05120 h_S_) := by host_stage

set_option maxHeartbeats 4000000 in
/-- `dh` repeated over the four gates, minus the diagonal of `uh·vhᵀ`. -/
theorem stage_v22 : (V m c main_v22 : S4x1024.Idx → EReal)
    = subf (F := Ideal) (s := S4x1024) (φ := .f32) (broadcastInDim S4x1024 ![0, 1] bcast_S1x1024_S4x1024_0_1 ((m ((c : Thread nD τ).loc main_arg10)) : S1x1024.Idx → EReal))
      (Cert.ReferenceIdeal.Read.val_main_v21 (F := Ideal) (m ((c : Thread nD τ).loc main_arg4)) (m ((c : Thread nD τ).loc main_arg6))) := by host_stage

set_option maxHeartbeats 4000000 in
/-- The summed bias, reshaped to four rows. -/
theorem stage_v24 : (V m c main_v24 : S4x1024.Idx → EReal)
    = shapeCast (α := EReal) S4x1024 (addf (F := Ideal) (s := S4096) (φ := .f32) (m ((c : Thread nD τ).loc main_arg7)) (m ((c : Thread nD τ).loc main_arg8))) shapeCasts_S4096_S4x1024 := by host_stage

end Cert.Cell.Host

end
-- ==== Proof.RefPad.lean ====
/-
  A `stablehlo.pad` that only appends columns, read at explicit coordinates.

  With no low padding and no interior padding on any axis, and high padding on the last axis alone, the padded array
  agrees with the operand on the operand's own columns and holds the padding value on every further column. Stated
  for rank 2 (any row count) and rank 3 (any two leading extents); both are the library's two reads of a `pad` at an
  index — inside the operand, outside it on some axis — with the last coordinate compared against the operand's width.
-/
import Idealize.ShloMosaic.Lib.KernelVsHost
import Idealize.ShloMosaic.Lib.ValueIdx

namespace Cert.Cell

open Idealize.ShloMosaic Idealize.ShloMosaic.ValueIdx

/-- A rank-2 array of `m` columns padded with `p` further columns on the right, read at row `b`, column `k`: the
    operand's entry when `k` is one of its `m` columns, and the padding value otherwise. -/
theorem pad_high_cols_apply {α : Type} {n m M p : Nat} (x : (⟨2, ![n, m]⟩ : Shape).Idx → α) {u : Shape}
    (v : u.Idx → α) (h : (⟨2, ![n, m]⟩ : Shape).Pads ![0, 0] ![0, p] ![0, 0] ⟨2, ![n, M]⟩) (hu : 0 < u.numel)
    (b : Fin n) (k : Fin M) :
    pad ⟨2, ![n, M]⟩ ![0, 0] ![0, p] ![0, 0] x v h hu (ix2 b k)
      = if hk : k.val < m then x (ix2 b ⟨k.val, hk⟩) else v (Shape.Idx.first hu) := by
  by_cases hk : k.val < m
  · rw [dif_pos hk]
    refine pad_apply_of_inside _ _ _ x v h hu _ (ix2 b ⟨k.val, hk⟩) (fun a => ?_)
    match a with
    | ⟨0, _⟩ => show b.val = 0 + b.val * (0 + 1); omega
    | ⟨1, _⟩ => show k.val = 0 + k.val * (0 + 1); omega
  · rw [dif_neg hk]
    refine pad_apply_of_not_inside _ _ _ x v h hu _ (1 : Fin 2) (fun hin => hk ?_)
    have h3 : (k.val - 0) / (0 + 1) < m := hin.2.2
    simpa using h3

/-- The same for a rank-3 array padded on its last axis, read at `(b, g, k)`. -/
theorem pad_high_cols3_apply {α : Type} {n q m M p : Nat} (x : (⟨3, ![n, q, m]⟩ : Shape).Idx → α) {u : Shape}
    (v : u.Idx → α) (h : (⟨3, ![n, q, m]⟩ : Shape).Pads ![0, 0, 0] ![0, 0, p] ![0, 0, 0] ⟨3, ![n, q, M]⟩)
    (hu : 0 < u.numel) (b : Fin n) (g : Fin q) (k : Fin M) :
    pad ⟨3, ![n, q, M]⟩ ![0, 0, 0] ![0, 0, p] ![0, 0, 0] x v h hu (ix3 b g k)
      = if hk : k.val < m then x (ix3 b g ⟨k.val, hk⟩) else v (Shape.Idx.first hu) := by
  by_cases hk : k.val < m
  · rw [dif_pos hk]
    refine pad_apply_of_inside _ _ _ x v h hu _ (ix3 b g ⟨k.val, hk⟩) (fun a => ?_)
    match a with
    | ⟨0, _⟩ => show b.val = 0 + b.val * (0 + 1); omega
    | ⟨1, _⟩ => show g.val = 0 + g.val * (0 + 1); omega
    | ⟨2, _⟩ => show k.val = 0 + k.val * (0 + 1); omega
  · rw [dif_neg hk]
    refine pad_apply_of_not_inside _ _ _ x v h hu _ (2 : Fin 3) (fun hin => hk ?_)
    have h3 : (k.val - 0) / (0 + 1) < m := hin.2.2
    simpa using h3

end Cert.Cell
-- ==== Proof.RefCoef.lean ====
/-
  The two diagonal stages of the reference, read at explicit coordinates.

  The reference computes `coef_x[g, k] = Σ_r u_x[k, r] · v_x[g·1024 + k, r]` (for `k < 512`) and
  `coef_h[g, k] = Σ_r u_h[k, r] · v_h[g·1024 + k, r]` as a reduction, from the f32 zero, of an elementwise product of a
  broadcast of the down-projection and a reshape (then, for `x`, a slice) of the up-projection. Read at gate `g` and
  column `k`, each is the sum in Spec.lean's `coefX` / `coefH`: the zero initial value drops, the broadcasts forget
  the gate, and the reshape of stacked row `g·1024 + k` into `(g, k)` is `row g k`.
-/
import proofs.«115530_j67027259621386_2_alg».proof.Proof.Spec
import proofs.«115530_j67027259621386_2_alg».proof.Proof.Gen.ReferenceIdeal.Read

noncomputable section

open scoped BigOperators

namespace Cert.Cell.Ref

open Idealize.ShloMosaic Idealize.ShloMosaic.ValueIdx Cert.ReferenceIdeal Cert.ReferenceIdeal.Read

/-- The reshape of a `4096 × 64` array into `4 × 1024 × 64` reads stacked row `g·1024 + k` at `(g, k)`. -/
theorem idx_v11_ix3 (g : Fin 4) (k : Fin 1024) (r : Fin 64) : idx_main_v11 (ix3 g k r) = ix2 (row g k) r := by
  have hr := r.isLt
  funext a
  match a with
  | ⟨0, _⟩ => exact Fin.ext (show ((g.val * 1024 + k.val) * 64 + r.val) / 64 = g.val * 1024 + k.val by omega)
  | ⟨1, _⟩ => exact Fin.ext (show ((g.val * 1024 + k.val) * 64 + r.val) % 64 = r.val by omega)

/-- The same reshape, of the second up-projection. -/
theorem idx_v12_ix3 (g : Fin 4) (k : Fin 1024) (r : Fin 64) : idx_main_v12 (ix3 g k r) = ix2 (row g k) r := by
  have hr := r.isLt
  funext a
  match a with
  | ⟨0, _⟩ => exact Fin.ext (show ((g.val * 1024 + k.val) * 64 + r.val) / 64 = g.val * 1024 + k.val by omega)
  | ⟨1, _⟩ => exact Fin.ext (show ((g.val * 1024 + k.val) * 64 + r.val) % 64 = r.val by omega)

/-- `coef_x` at gate `g`, column `k < 512`, over the two arrays it reads. -/
theorem v17_apply (x3 : (⟨S512x64, .f32⟩ : BufTy).Contents (Elt Ideal)) (x5 : (⟨S4096x64, .f32⟩ : BufTy).Contents (Elt Ideal))
    (g : Fin 4) (k : Fin 512) :
    val_main_v17 (F := Ideal) x3 x5 (ix2 g k) = ∑ r : Fin 64, x3 (ix2 k r) * x5 (ix2 (row g (wide k)) r) := by
  rw [val_main_v17_apply, val_main_cst_apply, Ideal.ofBits_def, Ideal.ofBits_zero_f32, zero_add]
  refine Finset.sum_congr rfl fun r _ => ?_
  rw [val_main_v16_apply, val_main_v15_apply, val_main_v13_apply, val_main_v14_apply, val_main_v11_apply]
  have e1 : idx_main_v13 (idx_main_v15 (idx_main_v17 (ix2 g k) r)) = ix2 k r := by
    funext a; match a with | ⟨0, _⟩ => rfl | ⟨1, _⟩ => rfl
  have e2 : idx_main_v14 (idx_main_v17 (ix2 g k) r) = ix3 g (wide k) r := by
    funext a; match a with | ⟨0, _⟩ => rfl | ⟨1, _⟩ => rfl | ⟨2, _⟩ => rfl
  rw [e1, e2, idx_v11_ix3]
  rfl

/-- `coef_h` at gate `g`, column `k`, over the two arrays it reads. -/
theorem v21_apply (x4 : (⟨S1024x64, .f32⟩ : BufTy).Contents (Elt Ideal)) (x6 : (⟨S4096x64, .f32⟩ : BufTy).Contents (Elt Ideal))
    (g : Fin 4) (k : Fin 1024) :
    val_main_v21 (F := Ideal) x4 x6 (ix2 g k) = ∑ r : Fin 64, x4 (ix2 k r) * x6 (ix2 (row g k) r) := by
  rw [val_main_v21_apply, val_main_cst_0_apply, Ideal.ofBits_def, Ideal.ofBits_zero_f32, zero_add]
  refine Finset.sum_congr rfl fun r _ => ?_
  rw [val_main_v20_apply, val_main_v19_apply, val_main_v18_apply, val_main_v12_apply]
  have e1 : idx_main_v18 (idx_main_v19 (idx_main_v21 (ix2 g k) r)) = ix2 k r := by
    funext a; match a with | ⟨0, _⟩ => rfl | ⟨1, _⟩ => rfl
  have e2 : idx_main_v21 (ix2 g k) r = ix3 g k r := by
    funext a; match a with | ⟨0, _⟩ => rfl | ⟨1, _⟩ => rfl | ⟨2, _⟩ => rfl
  rw [e1, e2, idx_v12_ix3]
  rfl

/-- `coef_x` is Spec.lean's `coefX`. -/
theorem v17_eq_coefX (A : Args) (g : Fin 4) (k : Fin 512) :
    val_main_v17 (F := Ideal) A.ux A.vx (ix2 g k) = coefX A g k := v17_apply A.ux A.vx g k

/-- `coef_h` is Spec.lean's `coefH`. -/
theorem v21_eq_coefH (A : Args) (g : Fin 4) (k : Fin 1024) :
    val_main_v21 (F := Ideal) A.uh A.vh (ix2 g k) = coefH A g k := v21_apply A.uh A.vh g k

end Cert.Cell.Ref

end
-- ==== Proof.KernelHostRead.lean ====
/-
  The coefficient arrays the kernel's host-side operations prepare, read at an index.

  Before the grid runs, four arrays are computed from the arguments:
  * the two transposed up-projections stacked along the rank axis (128 × 4096): row s < 64 is row s of vxᵀ, row
    s ≥ 64 is row s − 64 of vhᵀ;
  * dx padded with zeros to 1024 columns and broadcast down the four gates, minus the diagonal coefficient of the
    x-side padded with zeros to 1024 columns;
  * dh broadcast down the four gates, minus the diagonal coefficient of the h-side;
  * the summed bias bx + bh, its 4096 entries reshaped to 4 × 1024: entry (g, k) is entry g·1024 + k.
  Each is read here at explicit coordinates and is the corresponding quantity of the specification. Format changes
  are the identity on extended reals; the padding value is the integer zero converted, which is 0.
-/
import proofs.«115530_j67027259621386_2_alg».proof.KernelIdeal
import proofs.«115530_j67027259621386_2_alg».proof.Proof.Spec
import proofs.«115530_j67027259621386_2_alg».proof.Proof.RefPad
import proofs.«115530_j67027259621386_2_alg».proof.Proof.RefCoef
import Idealize.ShloMosaic.Lib.Pipeline.Value
import Idealize.ShloMosaic.Lib.KernelVsHost
import Idealize.ShloMosaic.Lib.ValueIdx

noncomputable section

open scoped BigOperators

namespace Cert.Cell.HostRead

open Cert.KernelIdeal Cert.KernelIdeal.Facts₀ Idealize.ShloMosaic Idealize.ShloMosaic.ValueIdx Cert.Cell

variable [Cert.KernelIdeal.Facts₀]

/-- The padding value: the integer zero converted to a float, at its one index. -/
abbrev Z : S_.Idx → EReal := sitofp (F := Ideal) .f32 (constantI S_ 32 0#32)

/-- The padding value is 0. -/
theorem Z_apply (i : S_.Idx) : Z i = 0 := by
  show (((0#32 : BitVec 32).toInt : ℝ) : EReal) = 0
  simp

/-! ### The stacked up-projection -/

/-- Entry (s, j) of the transposed up-projection vxᵀ is entry (j, s) of vx. -/
theorem transpose_up (v : S4096x64.Idx → EReal) (s : Fin 64) (j : Fin 4096) :
    transpose S64x4096 [1, 0] v transposes_S4096x64_S64x4096_1_0 (ix2 s j) = v (ix2 j s) :=
  transpose_apply [1, 0] v transposes_S4096x64_S64x4096_1_0 (ix2 s j) (ix2 j s)
    (fun b => match b with | ⟨0, _⟩ => rfl | ⟨1, _⟩ => rfl)

/-- Above row 64 the stack reads its first operand. -/
theorem stack_left (u v : S64x4096.Idx → EReal) (s : Fin 128) (j : Fin 4096) (hs : s.val < 64) :
    concatenate S128x4096 0 [⟨S64x4096, u⟩, ⟨S64x4096, v⟩] concatenates_S64x4096_S64x4096_S128x4096_d0 (ix2 s j)
      = u (ix2 ⟨s.val, hs⟩ j) :=
  concatenate_pair_apply_left (0 : Fin S128x4096.rank) u v concatenates_S64x4096_S64x4096_S128x4096_d0 (ix2 s j) rfl
    (ix2 ⟨s.val, hs⟩ j) (fun b => match b with | ⟨0, _⟩ => rfl | ⟨1, _⟩ => rfl)

/-- From row 64 on it reads its second operand, 64 rows back. -/
theorem stack_right (u v : S64x4096.Idx → EReal) (s : Fin 128) (j : Fin 4096) (hs : ¬ s.val < 64) :
    concatenate S128x4096 0 [⟨S64x4096, u⟩, ⟨S64x4096, v⟩] concatenates_S64x4096_S64x4096_S128x4096_d0 (ix2 s j)
      = v (ix2 ⟨s.val - 64, by have := s.isLt; omega⟩ j) :=
  concatenate_pair_apply_right (0 : Fin S128x4096.rank) u v concatenates_S64x4096_S64x4096_S128x4096_d0 (ix2 s j) rfl rfl
    (ix2 ⟨s.val - 64, by have := s.isLt; omega⟩ j)
    (fun b hb => match b, hb with | ⟨0, _⟩, hb => absurd rfl hb | ⟨1, _⟩, _ => rfl)
    (by show (s.val - 64) + 64 = s.val; omega)

/-- The stacked up-projection at an index is the specification's stacked factor. -/
theorem upCat_read (A : Args) (z : S128x4096.Idx) :
    truncf (F := Ideal) .bf16
        (concatenate S128x4096 0
          [⟨S64x4096, transpose S64x4096 [1, 0] A.vx transposes_S4096x64_S64x4096_1_0⟩,
           ⟨S64x4096, transpose S64x4096 [1, 0] A.vh transposes_S4096x64_S64x4096_1_0⟩]
          concatenates_S64x4096_S64x4096_S128x4096_d0) bitsLt_bf16_f32 z
      = upCat A (z 0) (z 1) := by
  obtain ⟨s, j, rfl⟩ : ∃ (s : Fin 128) (j : Fin 4096), z = ix2 s j := ⟨z 0, z 1, eq_ix2 z⟩
  rw [truncf_apply]
  show _ = upCat A s j
  unfold upCat
  by_cases hs : s.val < 64
  · rw [dif_pos hs, stack_left _ _ s j hs, transpose_up]
  · rw [dif_neg hs, stack_right _ _ s j hs, transpose_up]

/-! ### The two diagonal coefficients and the bias -/

/-- dx padded and broadcast, minus the padded x-side diagonal coefficient, at an index. -/
theorem aK_read (A : Args) (z : S4x1024.Idx) :
    subf (F := Ideal) (φ := .f32)
        (broadcastInDim S4x1024 ![0, 1] bcast_S1x1024_S4x1024_0_1
          (pad S1x1024 ![0, 0] ![0, 512] ![0, 0] A.dx Z pads_S1x512_S1x1024_000_05120 h_S_))
        (pad S4x1024 ![0, 0] ![0, 512] ![0, 0] (Cert.ReferenceIdeal.Read.val_main_v17 (F := Ideal) A.ux A.vx) Z
          pads_S4x512_S4x1024_000_05120 h_S_) z
      = aK A (z 0) (z 1) := by
  obtain ⟨g, k, rfl⟩ : ∃ (g : Fin 4) (k : Fin 1024), z = ix2 g k := ⟨z 0, z 1, eq_ix2 z⟩
  rw [subf_apply, broadcastInDim_oneRow_apply, pad_high_cols_apply, pad_high_cols_apply]
  show _ = aK A g k
  unfold aK
  by_cases hk : k.val < 512
  · rw [dif_pos hk, dif_pos hk, dif_pos hk, dif_pos hk, Ref.v17_eq_coefX]
  · rw [dif_neg hk, dif_neg hk, dif_neg hk, dif_neg hk, Z_apply]

/-- dh broadcast, minus the h-side diagonal coefficient, at an index. -/
theorem dK_read (A : Args) (z : S4x1024.Idx) :
    subf (F := Ideal) (φ := .f32) (broadcastInDim S4x1024 ![0, 1] bcast_S1x1024_S4x1024_0_1 A.dh)
        (Cert.ReferenceIdeal.Read.val_main_v21 (F := Ideal) A.uh A.vh) z
      = dK A (z 0) (z 1) := by
  obtain ⟨g, k, rfl⟩ : ∃ (g : Fin 4) (k : Fin 1024), z = ix2 g k := ⟨z 0, z 1, eq_ix2 z⟩
  rw [subf_apply, broadcastInDim_oneRow_apply, Ref.v21_eq_coefH]
  rfl

/-- The summed bias reshaped to 4 × 1024, at an index. -/
theorem bK_read (A : Args) (z : S4x1024.Idx) :
    shapeCast S4x1024 (addf (F := Ideal) (φ := .f32) A.bx A.bh) shapeCasts_S4096_S4x1024 z = bK A (z 0) (z 1) := by
  obtain ⟨g, k, rfl⟩ : ∃ (g : Fin 4) (k : Fin 1024), z = ix2 g k := ⟨z 0, z 1, eq_ix2 z⟩
  rw [shapeCast_apply (addf (F := Ideal) (φ := .f32) A.bx A.bh) shapeCasts_S4096_S4x1024 (ix2 g k) (ix1 (row g k)) (by
    rw [Shape.rowMajor_val_one, Shape.rowMajor_val_two]
    rfl), addf_apply]
  rfl

end Cert.Cell.HostRead

end
-- ==== Proof.KernelHostAt.lean ====
/-
  The six arrays the kernel's constant windows stage, read at an index against the specification: the two
  down-projections unchanged, the stacked up-projection as `upCat`, and the three coefficient arrays as `aK`, `dK`, `bK`.
  Each is the composed host term of Proof/KernelHost.lean read by the lemmas of Proof/KernelHostRead.lean.
-/
import proofs.«115530_j67027259621386_2_alg».proof.Proof.KernelHost
import proofs.«115530_j67027259621386_2_alg».proof.Proof.KernelHostRead

noncomputable section

open scoped BigOperators

namespace Cert.Cell.Host

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

theorem V_ux (z : S512x64.Idx) : (V m c main_v0 : S512x64.Idx → EReal) z = (argsOf m c).ux z :=
  congrFun (stage_v0 m c) z

theorem V_uh (z : S1024x64.Idx) : (V m c main_v1 : S1024x64.Idx → EReal) z = (argsOf m c).uh z :=
  congrFun (stage_v1 m c) z

theorem V_w (z : S128x4096.Idx) : (V m c main_v5 : S128x4096.Idx → EReal) z = upCat (argsOf m c) (z 0) (z 1) :=
  (congrFun (stage_v5 m c) z).trans (HostRead.upCat_read (argsOf m c) z)

theorem V_a (z : S4x1024.Idx) : (V m c main_v20 : S4x1024.Idx → EReal) z = aK (argsOf m c) (z 0) (z 1) :=
  (congrFun (stage_v20 m c) z).trans (HostRead.aK_read (argsOf m c) z)

theorem V_d (z : S4x1024.Idx) : (V m c main_v22 : S4x1024.Idx → EReal) z = dK (argsOf m c) (z 0) (z 1) :=
  (congrFun (stage_v22 m c) z).trans (HostRead.dK_read (argsOf m c) z)

theorem V_b (z : S4x1024.Idx) : (V m c main_v24 : S4x1024.Idx → EReal) z = bK (argsOf m c) (z 0) (z 1) :=
  (congrFun (stage_v24 m c) z).trans (HostRead.bK_read (argsOf m c) z)

end Cert.Cell.Host

end
-- ==== Proof.RefValue.lean ====
/-
  The reference program, read at one element, is the term-by-term arrangement of Spec.lean.

  Each stage of the reference is read at explicit coordinates and identified with Spec.lean's name for it: the two
  projections (`projX`, `projH`), the two rank-64 products (`lowX`, `lowH`), the two refinement terms `x · coef_x`
  (zero past column 511, by the padding) and `h · coef_h` (`refX`, `refH`), the two diagonal terms (`vmX`, `vmH`), the
  bias broadcasts, and the four column slices at offsets `g·1024`, which read stacked row `row g k`. The four
  pre-activations are then `preR 0 … 3`, the logistic written as `1 / (1 + exp (−z))` is `Ideal.logistic`, and the two
  results are `cR` and `hR`.
-/
import proofs.«115530_j67027259621386_2_alg».proof.Proof.Spec
import proofs.«115530_j67027259621386_2_alg».proof.Proof.RefPad
import proofs.«115530_j67027259621386_2_alg».proof.Proof.RefCoef
import proofs.«115530_j67027259621386_2_alg».proof.Proof.Gen.ReferenceIdeal.Read

noncomputable section

open scoped BigOperators

namespace Cert.Cell.Ref

open Idealize.ShloMosaic Idealize.ShloMosaic.ValueIdx Cert.ReferenceIdeal Cert.ReferenceIdeal.Read

/-! ## Constants -/

/-- The f32 constant `1.0` is the extended real `1`. -/
theorem one_f32 : Ideal.ofBits .f32 0x3F800000#32 = 1 := by
  simp [Ideal.ofBits, Ideal.ieee, -EReal.coe_mul] <;> norm_num

/-- The i32 constant `0` converted to f32 is the extended real `0`. -/
theorem sitofp_zero : FloatOps.sitofp (F := Ideal) .f32 (0#32 : BitVec 32) = 0 := by
  show (((0#32 : BitVec 32).toInt : ℝ) : EReal) = 0
  simp

/-- `1 / (1 + exp (−z))`, as the reference writes the logistic, is `Ideal.logistic z`. -/
theorem logistic_written (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.ofBits_def, one_f32, Ideal.hostDivf_def, Ideal.addf_def, Ideal.hostUnary_exp_def, Ideal.hostNegf_def,
    Ideal.negf_def]
  rfl

/-! ## Index functions at coordinates -/

/-- The reshape of `8192 × 4 × 1024` into `8192 × 4096` reads `(b, g, k)` at column `g·1024 + k`. -/
theorem idx_v28_row (b : Fin 8192) (g : Fin 4) (k : Fin 1024) : idx_main_v28 (ix2 b (row g k)) = ix3 b g k := by
  have hg := g.isLt
  have hk := k.isLt
  funext a
  match a with
  | ⟨0, _⟩ => exact Fin.ext (show (b.val * 4096 + (g.val * 1024 + k.val)) / 4096 = b.val by omega)
  | ⟨1, _⟩ => exact Fin.ext (show (b.val * 4096 + (g.val * 1024 + k.val)) / 1024 % 4 = g.val by omega)
  | ⟨2, _⟩ => exact Fin.ext (show (b.val * 4096 + (g.val * 1024 + k.val)) % 1024 = k.val by omega)

/-- The same reshape, of the `h` refinement term. -/
theorem idx_v34_row (b : Fin 8192) (g : Fin 4) (k : Fin 1024) : idx_main_v34 (ix2 b (row g k)) = ix3 b g k := by
  have hg := g.isLt
  have hk := k.isLt
  funext a
  match a with
  | ⟨0, _⟩ => exact Fin.ext (show (b.val * 4096 + (g.val * 1024 + k.val)) / 4096 = b.val by omega)
  | ⟨1, _⟩ => exact Fin.ext (show (b.val * 4096 + (g.val * 1024 + k.val)) / 1024 % 4 = g.val by omega)
  | ⟨2, _⟩ => exact Fin.ext (show (b.val * 4096 + (g.val * 1024 + k.val)) % 1024 = k.val by omega)

/-! The eight column slices: offset `g·1024` reads stacked row `row g k`. -/

theorem idx_v43 (b : Fin 8192) (k : Fin 1024) : idx_main_v43 (ix2 b k) = ix2 b (row 0 k) := by
  funext a
  match a with
  | ⟨0, _⟩ => rfl
  | ⟨1, _⟩ => exact Fin.ext (show k.val = 0 * 1024 + k.val by omega)
theorem idx_v44 (b : Fin 8192) (k : Fin 1024) : idx_main_v44 (ix2 b k) = ix2 b (row 1 k) := by
  funext a
  match a with
  | ⟨0, _⟩ => rfl
  | ⟨1, _⟩ => exact Fin.ext (show 1024 + k.val = 1 * 1024 + k.val by omega)
theorem idx_v45 (b : Fin 8192) (k : Fin 1024) : idx_main_v45 (ix2 b k) = ix2 b (row 2 k) := by
  funext a
  match a with
  | ⟨0, _⟩ => rfl
  | ⟨1, _⟩ => exact Fin.ext (show 2048 + k.val = 2 * 1024 + k.val by omega)
theorem idx_v46 (b : Fin 8192) (k : Fin 1024) : idx_main_v46 (ix2 b k) = ix2 b (row 3 k) := by
  funext a
  match a with
  | ⟨0, _⟩ => rfl
  | ⟨1, _⟩ => exact Fin.ext (show 3072 + k.val = 3 * 1024 + k.val by omega)
theorem idx_v47 (b : Fin 8192) (k : Fin 1024) : idx_main_v47 (ix2 b k) = ix2 b (row 0 k) := by
  funext a
  match a with
  | ⟨0, _⟩ => rfl
  | ⟨1, _⟩ => exact Fin.ext (show k.val = 0 * 1024 + k.val by omega)
theorem idx_v48 (b : Fin 8192) (k : Fin 1024) : idx_main_v48 (ix2 b k) = ix2 b (row 1 k) := by
  funext a
  match a with
  | ⟨0, _⟩ => rfl
  | ⟨1, _⟩ => exact Fin.ext (show 1024 + k.val = 1 * 1024 + k.val by omega)
theorem idx_v49 (b : Fin 8192) (k : Fin 1024) : idx_main_v49 (ix2 b k) = ix2 b (row 2 k) := by
  funext a
  match a with
  | ⟨0, _⟩ => rfl
  | ⟨1, _⟩ => exact Fin.ext (show 2048 + k.val = 2 * 1024 + k.val by omega)
theorem idx_v50 (b : Fin 8192) (k : Fin 1024) : idx_main_v50 (ix2 b k) = ix2 b (row 3 k) := by
  funext a
  match a with
  | ⟨0, _⟩ => rfl
  | ⟨1, _⟩ => exact Fin.ext (show 3072 + k.val = 3 * 1024 + k.val by omega)

/-! ## The stages -/

variable (x0 : (⟨S8192x512, .f32⟩ : BufTy).Contents (Elt Ideal))
  (x1 x2 : (⟨S8192x1024, .f32⟩ : BufTy).Contents (Elt Ideal))
  (x3 : (⟨S512x64, .f32⟩ : BufTy).Contents (Elt Ideal))
  (x4 : (⟨S1024x64, .f32⟩ : BufTy).Contents (Elt Ideal))
  (x5 x6 : (⟨S4096x64, .f32⟩ : BufTy).Contents (Elt Ideal))
  (x7 x8 : (⟨S4096, .f32⟩ : BufTy).Contents (Elt Ideal))
  (x9 : (⟨S1x512, .f32⟩ : BufTy).Contents (Elt Ideal))
  (x10 : (⟨S1x1024, .f32⟩ : BufTy).Contents (Elt Ideal))

/-- The eleven arguments, in the program's order, as Spec.lean's record. -/
abbrev mkArgs : Args := ⟨x0, x1, x2, x3, x4, x5, x6, x7, x8, x9, x10⟩

/-- `x · u_x`. -/
theorem v5_at (b : Fin 8192) (s : Fin 64) :
    val_main_v5 (F := Ideal) x0 x3 (ix2 b s) = projX (mkArgs x0 x1 x2 x3 x4 x5 x6 x7 x8 x9 x10) b s := by
  rw [val_main_v5_apply]
  show _ = ∑ i : Fin 512, x0 (ix2 b i) * x3 (ix2 i s)
  refine Finset.sum_congr rfl fun i _ => ?_
  have e1 : lidx_main_v5 (ix2 b s) i = ix2 b i := by
    funext a; match a with | ⟨0, _⟩ => rfl | ⟨1, _⟩ => rfl
  have e2 : ridx_main_v5 (ix2 b s) i = ix2 i s := by
    funext a; match a with | ⟨0, _⟩ => rfl | ⟨1, _⟩ => rfl
  rw [e1, e2]

/-- `(x · u_x) · v_xᵀ`. -/
theorem v7_at (b : Fin 8192) (j : Fin 4096) :
    val_main_v7 (F := Ideal) x0 x3 x5 (ix2 b j) = lowX (mkArgs x0 x1 x2 x3 x4 x5 x6 x7 x8 x9 x10) b j := by
  rw [val_main_v7_apply]
  show _ = ∑ s : Fin 64, projX (mkArgs x0 x1 x2 x3 x4 x5 x6 x7 x8 x9 x10) b s * x5 (ix2 j s)
  refine Finset.sum_congr rfl fun s _ => ?_
  have e1 : lidx_main_v7 (ix2 b j) s = ix2 b s := by
    funext a; match a with | ⟨0, _⟩ => rfl | ⟨1, _⟩ => rfl
  have e2 : idx_main_v6 (ridx_main_v7 (ix2 b j) s) = ix2 j s := by
    funext a; match a with | ⟨0, _⟩ => rfl | ⟨1, _⟩ => rfl
  rw [val_main_v6_apply, e1, e2, v5_at x0 x1 x2 x3 x4 x5 x6 x7 x8 x9 x10]

/-- `h · u_h`. -/
theorem v8_at (b : Fin 8192) (s : Fin 64) :
    val_main_v8 (F := Ideal) x1 x4 (ix2 b s) = projH (mkArgs x0 x1 x2 x3 x4 x5 x6 x7 x8 x9 x10) b s := by
  rw [val_main_v8_apply]
  show _ = ∑ i : Fin 1024, x1 (ix2 b i) * x4 (ix2 i s)
  refine Finset.sum_congr rfl fun i _ => ?_
  have e1 : lidx_main_v8 (ix2 b s) i = ix2 b i := by
    funext a; match a with | ⟨0, _⟩ => rfl | ⟨1, _⟩ => rfl
  have e2 : ridx_main_v8 (ix2 b s) i = ix2 i s := by
    funext a; match a with | ⟨0, _⟩ => rfl | ⟨1, _⟩ => rfl
  rw [e1, e2]

/-- `(h · u_h) · v_hᵀ`. -/
theorem v10_at (b : Fin 8192) (j : Fin 4096) :
    val_main_v10 (F := Ideal) x1 x4 x6 (ix2 b j) = lowH (mkArgs x0 x1 x2 x3 x4 x5 x6 x7 x8 x9 x10) b j := by
  rw [val_main_v10_apply]
  show _ = ∑ s : Fin 64, projH (mkArgs x0 x1 x2 x3 x4 x5 x6 x7 x8 x9 x10) b s * x6 (ix2 j s)
  refine Finset.sum_congr rfl fun s _ => ?_
  have e1 : lidx_main_v10 (ix2 b j) s = ix2 b s := by
    funext a; match a with | ⟨0, _⟩ => rfl | ⟨1, _⟩ => rfl
  have e2 : idx_main_v9 (ridx_main_v10 (ix2 b j) s) = ix2 j s := by
    funext a; match a with | ⟨0, _⟩ => rfl | ⟨1, _⟩ => rfl
  rw [val_main_v9_apply, e1, e2, v8_at x0 x1 x2 x3 x4 x5 x6 x7 x8 x9 x10]

/-- `x · coef_x` before the padding, at gate `g` and a column below 512. -/
theorem v26_at (b : Fin 8192) (g : Fin 4) (k : Fin 512) :
    val_main_v26 (F := Ideal) x0 x3 x5 (ix3 b g k) = x0 (ix2 b k) * coefX (mkArgs x0 x1 x2 x3 x4 x5 x6 x7 x8 x9 x10) g k := by
  rw [val_main_v26_apply, val_main_v24_apply, val_main_v22_apply, val_main_v25_apply, val_main_v23_apply]
  have e1 : idx_main_v22 (idx_main_v24 (ix3 b g k)) = ix2 b k := by
    funext a; match a with | ⟨0, _⟩ => rfl | ⟨1, _⟩ => rfl
  have e2 : idx_main_v23 (idx_main_v25 (ix3 b g k)) = ix2 g k := by
    funext a; match a with | ⟨0, _⟩ => rfl | ⟨1, _⟩ => rfl
  rw [e1, e2]
  exact congrArg (fun t => x0 (ix2 b k) * t) (v17_eq_coefX (mkArgs x0 x1 x2 x3 x4 x5 x6 x7 x8 x9 x10) g k)

/-- `x · coef_x` padded to 1024 columns is `refX`. -/
theorem v27_at (b : Fin 8192) (g : Fin 4) (k : Fin 1024) :
    val_main_v27 (F := Ideal) x0 x3 x5 (ix3 b g k) = refX (mkArgs x0 x1 x2 x3 x4 x5 x6 x7 x8 x9 x10) g b k := by
  unfold val_main_v27
  rw [pad_high_cols3_apply]
  show _ = if hk : k.val < 512 then x0 (ix2 b ⟨k.val, hk⟩) * coefX (mkArgs x0 x1 x2 x3 x4 x5 x6 x7 x8 x9 x10) g ⟨k.val, hk⟩ else 0
  by_cases hk : k.val < 512
  · rw [dif_pos hk, dif_pos hk, v26_at x0 x1 x2 x3 x4 x5 x6 x7 x8 x9 x10]
  · rw [dif_neg hk, dif_neg hk, val_main_call1_v0_apply, val_main_c_1_apply]
    exact sitofp_zero

/-- `h · coef_h` is `refH`. -/
theorem v33_at (b : Fin 8192) (g : Fin 4) (k : Fin 1024) :
    val_main_v33 (F := Ideal) x1 x4 x6 (ix3 b g k) = refH (mkArgs x0 x1 x2 x3 x4 x5 x6 x7 x8 x9 x10) g b k := by
  rw [val_main_v33_apply, val_main_v31_apply, val_main_v29_apply, val_main_v32_apply, val_main_v30_apply]
  have e1 : idx_main_v29 (idx_main_v31 (ix3 b g k)) = ix2 b k := by
    funext a; match a with | ⟨0, _⟩ => rfl | ⟨1, _⟩ => rfl
  have e2 : idx_main_v30 (idx_main_v32 (ix3 b g k)) = ix2 g k := by
    funext a; match a with | ⟨0, _⟩ => rfl | ⟨1, _⟩ => rfl
  rw [e1, e2]
  exact congrArg (fun t => x1 (ix2 b k) * t) (v21_eq_coefH (mkArgs x0 x1 x2 x3 x4 x5 x6 x7 x8 x9 x10) g k)

/-- The first bias, broadcast over the batch. -/
theorem v37_at (b : Fin 8192) (j : Fin 4096) : val_main_v37 (F := Ideal) x7 (ix2 b j) = x7 (ix1 j) := by
  rw [val_main_v37_apply, val_main_v36_apply]
  have e : idx_main_v36 (idx_main_v37 (ix2 b j)) = ix1 j := by
    funext a; match a with | ⟨0, _⟩ => rfl
  rw [e]

/-- The second bias, broadcast over the batch. -/
theorem v41_at (b : Fin 8192) (j : Fin 4096) : val_main_v41 (F := Ideal) x8 (ix2 b j) = x8 (ix1 j) := by
  rw [val_main_v41_apply, val_main_v40_apply]
  have e : idx_main_v40 (idx_main_v41 (ix2 b j)) = ix1 j := by
    funext a; match a with | ⟨0, _⟩ => rfl
  rw [e]

/-- The `x` half of gate `g`: `lowX − refX + b_x` at stacked row `row g k`. -/
theorem v38_at (b : Fin 8192) (g : Fin 4) (k : Fin 1024) :
    val_main_v38 (F := Ideal) x0 x3 x5 x7 (ix2 b (row g k))
      = lowX (mkArgs x0 x1 x2 x3 x4 x5 x6 x7 x8 x9 x10) b (row g k) - refX (mkArgs x0 x1 x2 x3 x4 x5 x6 x7 x8 x9 x10) g b k + x7 (ix1 (row g k)) := by
  rw [val_main_v38_apply, val_main_v35_apply, v7_at x0 x1 x2 x3 x4 x5 x6 x7 x8 x9 x10, val_main_v28_apply, idx_v28_row,
    v27_at x0 x1 x2 x3 x4 x5 x6 x7 x8 x9 x10, v37_at]
  rfl

/-- The `h` half of gate `g`: `lowH − refH + b_h` at stacked row `row g k`. -/
theorem v42_at (b : Fin 8192) (g : Fin 4) (k : Fin 1024) :
    val_main_v42 (F := Ideal) x1 x4 x6 x8 (ix2 b (row g k))
      = lowH (mkArgs x0 x1 x2 x3 x4 x5 x6 x7 x8 x9 x10) b (row g k) - refH (mkArgs x0 x1 x2 x3 x4 x5 x6 x7 x8 x9 x10) g b k + x8 (ix1 (row g k)) := by
  rw [val_main_v42_apply, val_main_v39_apply, v10_at x0 x1 x2 x3 x4 x5 x6 x7 x8 x9 x10, val_main_v34_apply, idx_v34_row,
    v33_at x0 x1 x2 x3 x4 x5 x6 x7 x8 x9 x10, v41_at]
  rfl

/-- `dia_x · x` padded to 1024 columns is `vmX`. -/
theorem v2_at (b : Fin 8192) (k : Fin 1024) :
    val_main_v2 (F := Ideal) x0 x9 (ix2 b k) = vmX (mkArgs x0 x1 x2 x3 x4 x5 x6 x7 x8 x9 x10) b k := by
  unfold val_main_v2
  rw [pad_high_cols_apply]
  show _ = if hk : k.val < 512 then x9 (ix2 0 ⟨k.val, hk⟩) * x0 (ix2 b ⟨k.val, hk⟩) else 0
  by_cases hk : k.val < 512
  · rw [dif_pos hk, dif_pos hk, val_main_v1_apply, val_main_v0_apply]
    have e : idx_main_v0 (ix2 b (⟨k.val, hk⟩ : Fin 512)) = ix2 0 ⟨k.val, hk⟩ := by
      funext a; match a with | ⟨0, _⟩ => rfl | ⟨1, _⟩ => rfl
    rw [e]
    rfl
  · rw [dif_neg hk, dif_neg hk, val_main_call0_v0_apply, val_main_c_apply]
    exact sitofp_zero

/-- `dia_h · h` is `vmH`. -/
theorem v4_at (b : Fin 8192) (k : Fin 1024) :
    val_main_v4 (F := Ideal) x1 x10 (ix2 b k) = vmH (mkArgs x0 x1 x2 x3 x4 x5 x6 x7 x8 x9 x10) b k := by
  rw [val_main_v4_apply, val_main_v3_apply]
  have e : idx_main_v3 (ix2 b k) = ix2 0 k := by
    funext a; match a with | ⟨0, _⟩ => rfl | ⟨1, _⟩ => rfl
  rw [e]
  rfl

/-- The sum of the two diagonal terms. -/
theorem v51_at (b : Fin 8192) (k : Fin 1024) :
    val_main_v51 (F := Ideal) x0 x1 x9 x10 (ix2 b k) = vmX (mkArgs x0 x1 x2 x3 x4 x5 x6 x7 x8 x9 x10) b k + vmH (mkArgs x0 x1 x2 x3 x4 x5 x6 x7 x8 x9 x10) b k := by
  rw [val_main_v51_apply, v2_at x0 x1 x2 x3 x4 x5 x6 x7 x8 x9 x10, v4_at x0 x1 x2 x3 x4 x5 x6 x7 x8 x9 x10]
  rfl

/-! ## The four pre-activations -/

theorem pre0_at (b : Fin 8192) (k : Fin 1024) :
    val_main_v53 (F := Ideal) x0 x1 x3 x4 x5 x6 x7 x8 x9 x10 (ix2 b k) = preR (mkArgs x0 x1 x2 x3 x4 x5 x6 x7 x8 x9 x10) 0 b k := by
  rw [val_main_v53_apply, val_main_v52_apply, val_main_v43_apply, val_main_v47_apply, idx_v43, idx_v47,
    v38_at x0 x1 x2 x3 x4 x5 x6 x7 x8 x9 x10, v42_at x0 x1 x2 x3 x4 x5 x6 x7 x8 x9 x10,
    v51_at x0 x1 x2 x3 x4 x5 x6 x7 x8 x9 x10]
  rfl

theorem pre1_at (b : Fin 8192) (k : Fin 1024) :
    val_main_v61 (F := Ideal) x0 x1 x3 x4 x5 x6 x7 x8 x9 x10 (ix2 b k) = preR (mkArgs x0 x1 x2 x3 x4 x5 x6 x7 x8 x9 x10) 1 b k := by
  rw [val_main_v61_apply, val_main_v60_apply, val_main_v44_apply, val_main_v48_apply, idx_v44, idx_v48,
    v38_at x0 x1 x2 x3 x4 x5 x6 x7 x8 x9 x10, v42_at x0 x1 x2 x3 x4 x5 x6 x7 x8 x9 x10,
    v51_at x0 x1 x2 x3 x4 x5 x6 x7 x8 x9 x10]
  rfl

theorem pre2_at (b : Fin 8192) (k : Fin 1024) :
    val_main_v69 (F := Ideal) x0 x1 x3 x4 x5 x6 x7 x8 x9 x10 (ix2 b k) = preR (mkArgs x0 x1 x2 x3 x4 x5 x6 x7 x8 x9 x10) 2 b k := by
  rw [val_main_v69_apply, val_main_v68_apply, val_main_v45_apply, val_main_v49_apply, idx_v45, idx_v49,
    v38_at x0 x1 x2 x3 x4 x5 x6 x7 x8 x9 x10, v42_at x0 x1 x2 x3 x4 x5 x6 x7 x8 x9 x10,
    v51_at x0 x1 x2 x3 x4 x5 x6 x7 x8 x9 x10]
  rfl

theorem pre3_at (b : Fin 8192) (k : Fin 1024) :
    val_main_v77 (F := Ideal) x0 x1 x3 x4 x5 x6 x7 x8 x9 x10 (ix2 b k) = preR (mkArgs x0 x1 x2 x3 x4 x5 x6 x7 x8 x9 x10) 3 b k := by
  rw [val_main_v77_apply, val_main_v76_apply, val_main_v46_apply, val_main_v50_apply, idx_v46, idx_v50,
    v38_at x0 x1 x2 x3 x4 x5 x6 x7 x8 x9 x10, v42_at x0 x1 x2 x3 x4 x5 x6 x7 x8 x9 x10,
    v51_at x0 x1 x2 x3 x4 x5 x6 x7 x8 x9 x10]
  rfl

/-! ## The three logistics -/

theorem v59_at (i : S8192x1024.Idx) :
    val_main_v59 (F := Ideal) x0 x1 x3 x4 x5 x6 x7 x8 x9 x10 i = Ideal.logistic (val_main_v53 (F := Ideal) x0 x1 x3 x4 x5 x6 x7 x8 x9 x10 i) := by
  rw [val_main_v59_apply, val_main_v58_apply, val_main_cst_3_apply, val_main_v57_apply, val_main_v56_apply,
    val_main_cst_2_apply, val_main_v55_apply, val_main_v54_apply]
  exact logistic_written _

theorem v67_at (i : S8192x1024.Idx) :
    val_main_v67 (F := Ideal) x0 x1 x3 x4 x5 x6 x7 x8 x9 x10 i = Ideal.logistic (val_main_v61 (F := Ideal) x0 x1 x3 x4 x5 x6 x7 x8 x9 x10 i) := by
  rw [val_main_v67_apply, val_main_v66_apply, val_main_cst_5_apply, val_main_v65_apply, val_main_v64_apply,
    val_main_cst_4_apply, val_main_v63_apply, val_main_v62_apply]
  exact logistic_written _

theorem v75_at (i : S8192x1024.Idx) :
    val_main_v75 (F := Ideal) x0 x1 x3 x4 x5 x6 x7 x8 x9 x10 i = Ideal.logistic (val_main_v69 (F := Ideal) x0 x1 x3 x4 x5 x6 x7 x8 x9 x10 i) := by
  rw [val_main_v75_apply, val_main_v74_apply, val_main_cst_7_apply, val_main_v73_apply, val_main_v72_apply,
    val_main_cst_6_apply, val_main_v71_apply, val_main_v70_apply]
  exact logistic_written _

/-! ## The two results -/

theorem cR_at (b : Fin 8192) (k : Fin 1024) :
    val_main_v81 (F := Ideal) x0 x1 x2 x3 x4 x5 x6 x7 x8 x9 x10 (ix2 b k) = cR (mkArgs x0 x1 x2 x3 x4 x5 x6 x7 x8 x9 x10) (ix2 b k) := by
  rw [val_main_v81_apply, val_main_v79_apply, val_main_v80_apply, v67_at, v59_at, val_main_v78_apply,
    pre1_at x0 x1 x2 x3 x4 x5 x6 x7 x8 x9 x10, pre0_at x0 x1 x2 x3 x4 x5 x6 x7 x8 x9 x10,
    pre3_at x0 x1 x2 x3 x4 x5 x6 x7 x8 x9 x10]
  rfl

theorem hR_at (b : Fin 8192) (k : Fin 1024) :
    val_main_v83 (F := Ideal) x0 x1 x2 x3 x4 x5 x6 x7 x8 x9 x10 (ix2 b k) = hR (mkArgs x0 x1 x2 x3 x4 x5 x6 x7 x8 x9 x10) (ix2 b k) := by
  rw [val_main_v83_apply, v75_at, pre2_at x0 x1 x2 x3 x4 x5 x6 x7 x8 x9 x10, val_main_v82_apply,
    cR_at x0 x1 x2 x3 x4 x5 x6 x7 x8 x9 x10]
  rfl

/-- The reference's new cell state is `cR`. -/
theorem cR_eq : val_main_v81 (F := Ideal) x0 x1 x2 x3 x4 x5 x6 x7 x8 x9 x10 = Cert.Cell.cR ⟨x0, x1, x2, x3, x4, x5, x6, x7, x8, x9, x10⟩ := by
  funext j
  obtain ⟨b, k, rfl⟩ : ∃ (b : Fin 8192) (k : Fin 1024), j = ix2 b k := ⟨j 0, j 1, eq_ix2 j⟩
  exact cR_at x0 x1 x2 x3 x4 x5 x6 x7 x8 x9 x10 b k

/-- The reference's new hidden state is `hR`. -/
theorem hR_eq : val_main_v83 (F := Ideal) x0 x1 x2 x3 x4 x5 x6 x7 x8 x9 x10 = Cert.Cell.hR ⟨x0, x1, x2, x3, x4, x5, x6, x7, x8, x9, x10⟩ := by
  funext j
  obtain ⟨b, k, rfl⟩ : ∃ (b : Fin 8192) (k : Fin 1024), j = ix2 b k := ⟨j 0, j 1, eq_ix2 j⟩
  exact hR_at x0 x1 x2 x3 x4 x5 x6 x7 x8 x9 x10 b k

end Cert.Cell.Ref

end
-- ==== Proof.Algebra.lean ====
/-
  For finite arguments the fused and the term-by-term arrangement of the pre-activation agree.

  Over the extended reals multiplication does not distribute over addition in general, so the identity is proved over
  the reals: every argument entry is the coercion of a real number, sums and products of coerced reals are coerced
  reals, and what is left is a ring identity.  The one step that needs no finiteness is the split of the rank-128 sum
  into its two halves of 64: the first half reads the x-side factors, the second half the h-side factors.
-/
import Mathlib
import proofs.«115530_j67027259621386_2_alg».proof.Proof.Spec

noncomputable section

open scoped BigOperators

namespace Cert.Cell

open Idealize.ShloMosaic Idealize.ShloMosaic.ValueIdx

/-- An extended real that is the coercion of a real number. -/
def IsReal (e : EReal) : Prop := ∃ r : ℝ, e = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} (s : Finset ι) (f : ι → EReal) (hf : ∀ i ∈ s, IsReal (f i)) :
    IsReal (∑ i ∈ s, f i) := by
  classical
  revert hf
  refine Finset.induction_on s ?_ ?_
  · intro _
    exact ⟨0, by simp⟩
  · intro a s ha ih hf
    rw [Finset.sum_insert ha]
    obtain ⟨r, hr⟩ := hf a (Finset.mem_insert_self a s)
    obtain ⟨t, ht⟩ := ih (fun i hi => hf i (Finset.mem_insert_of_mem hi))
    exact ⟨r + t, by rw [hr, ht, EReal.coe_add]⟩

/-! ## The rank-128 sum is the sum of its two halves -/

theorem lowK_eq (A : Args) (b : Fin 8192) (j : Fin 4096) : lowK A b j = lowX A b j + lowH A b j := by
  unfold lowK lowX lowH
  have h := Fin.sum_univ_add (a := 64) (b := 64) (fun s : Fin (64 + 64) => projCat A b s * upCat A s j)
  refine h.trans ?_
  refine congrArg₂ (· + ·) (Finset.sum_congr rfl fun s _ => ?_) (Finset.sum_congr rfl fun s _ => ?_)
  · have hs : (Fin.castAdd 64 s : Fin (64 + 64)).val < 64 := s.isLt
    simp only [projCat, upCat, dif_pos hs]
    rfl
  · have hs : ¬ (Fin.natAdd 64 s : Fin (64 + 64)).val < 64 := by simp
    have he : ∀ h, (⟨(Fin.natAdd 64 s : Fin (64 + 64)).val - 64, h⟩ : Fin 64) = s := fun _ => Fin.ext (by simp)
    simp only [projCat, upCat, dif_neg hs, he]

/-! ## Every intermediate quantity of finite arguments is real -/

variable {A : Args}

theorem isReal_projX (hA : A.Finite) (b : Fin 8192) (s : Fin 64) : IsReal (projX A b s) :=
  IsReal.sum _ _ fun _ _ => IsReal.mul (hA.x _) (hA.ux _)

theorem isReal_projH (hA : A.Finite) (b : Fin 8192) (s : Fin 64) : IsReal (projH A b s) :=
  IsReal.sum _ _ fun _ _ => IsReal.mul (hA.h _) (hA.uh _)

theorem isReal_coefX (hA : A.Finite) (g : Fin 4) (k : Fin 512) : IsReal (coefX A g k) :=
  IsReal.sum _ _ fun _ _ => IsReal.mul (hA.ux _) (hA.vx _)

theorem isReal_coefH (hA : A.Finite) (g : Fin 4) (k : Fin 1024) : IsReal (coefH A g k) :=
  IsReal.sum _ _ fun _ _ => IsReal.mul (hA.uh _) (hA.vh _)

theorem isReal_lowX (hA : A.Finite) (b : Fin 8192) (j : Fin 4096) : IsReal (lowX A b j) :=
  IsReal.sum _ _ fun _ _ => IsReal.mul (isReal_projX hA _ _) (hA.vx _)

theorem isReal_lowH (hA : A.Finite) (b : Fin 8192) (j : Fin 4096) : IsReal (lowH A b j) :=
  IsReal.sum _ _ fun _ _ => IsReal.mul (isReal_projH hA _ _) (hA.vh _)

/-! ## The two arrangements agree -/

/-- With every quantity real, (dx − cx)·x = dx·x − x·cx and (dh − ch)·h = dh·h − h·ch, and the rest is
regrouping; past column 511 the padded terms vanish on both sides. -/
theorem preK_eq_preR (A : Args) (hA : A.Finite) (g : Fin 4) (b : Fin 8192) (k : Fin 1024) :
    preK A g b k = preR A g b k := by
  obtain ⟨lx, hlx⟩ := isReal_lowX hA b (row g k)
  obtain ⟨lh, hlh⟩ := isReal_lowH hA b (row g k)
  obtain ⟨ch, hch⟩ := isReal_coefH hA g k
  obtain ⟨h', hh⟩ := hA.h (ix2 b k)
  obtain ⟨dh', hdh⟩ := hA.dh (ix2 0 k)
  obtain ⟨bx', hbx⟩ := hA.bx (ix1 (row g k))
  obtain ⟨bh', hbh⟩ := hA.bh (ix1 (row g k))
  unfold preK preR
  rw [lowK_eq]
  unfold aK xpad dK bK refX refH vmX vmH
  by_cases hk : k.val < 512
  · obtain ⟨cx, hcx⟩ := isReal_coefX hA g ⟨k.val, hk⟩
    obtain ⟨x', hx⟩ := hA.x (ix2 b ⟨k.val, hk⟩)
    obtain ⟨dx', hdx⟩ := hA.dx (ix2 0 ⟨k.val, hk⟩)
    simp only [dif_pos hk]
    simp only [hlx, hlh, hch, hh, hdh, hbx, hbh, hcx, hx, hdx]
    simp only [← EReal.coe_mul, ← EReal.coe_add, ← EReal.coe_sub]
    rw [EReal.coe_eq_coe_iff]
    ring
  · simp only [dif_neg hk]
    simp only [hlx, hlh, hch, hh, hdh, hbx, hbh]
    rw [← EReal.coe_zero]
    simp only [← EReal.coe_mul, ← EReal.coe_add, ← EReal.coe_sub]
    rw [EReal.coe_eq_coe_iff]
    ring

theorem hK_eq_hR (A : Args) (hA : A.Finite) : hK A = hR A := by
  funext j
  have hpre : (fun g => preK A g (j 0) (j 1)) = fun g => preR A g (j 0) (j 1) :=
    funext fun g => preK_eq_preR A hA g (j 0) (j 1)
  simp only [hK, hR, hpre]

theorem cK_eq_cR (A : Args) (hA : A.Finite) : cK A = cR A := by
  funext j
  have hpre : (fun g => preK A g (j 0) (j 1)) = fun g => preR A g (j 0) (j 1) :=
    funext fun g => preK_eq_preR A hA g (j 0) (j 1)
  simp only [cK, cR, hpre]

end Cert.Cell

end
-- ==== Proof.Finite.lean ====
/-
  The precondition gives finiteness.

  The precondition evaluates, for each of the eleven argument arrays, the conjunction over all entries of |x| < +∞, and
  states that the conjunction of the eleven results is true.  Read back: a conjunction that is true has every conjunct
  true, so every entry x of every array satisfies max x (−x) < ⊤ in the extended reals; such an x is neither ⊤ nor ⊥,
  hence the coercion of a real number.
-/
import proofs.«115530_j67027259621386_2_alg».proof.Defs
import proofs.«115530_j67027259621386_2_alg».proof.Proof.Gen.Pre_finite_inputs
import proofs.«115530_j67027259621386_2_alg».proof.Proof.Spec
import Idealize.ShloMosaic.Lib.ReduceAll
import Idealize.ShloMosaic.Lib.ValueIdx

noncomputable section

namespace Cert.Cell

open Idealize.ShloMosaic Idealize.ShloMosaic.ValueIdx Idealize.SL.Sem
open Cert.Pre_finite_inputs

/-- The rank-0 shape has one index. -/
instance subsingleton_scalar_idx : Subsingleton S_.Idx := ⟨fun _ _ => funext fun d => d.elim0⟩

/-- An extended real x with |x| < +∞ is a real number: max x (−x) < ⊤ excludes both x = ⊤ and x = ⊥. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = r := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  have hlt : max x (-x) < ⊤ := by
    by_contra hn
    simp [hn] at h
  rw [max_lt_iff] at hlt
  induction x with
  | bot => simp at hlt
  | coe r => exact ⟨r, rfl⟩
  | top => simp at hlt

/-- The conjunction over all entries of |x| < +∞ being true, every entry of the array is a real number. -/
theorem finite_of_all {s : Shape} {axes : List (Fin s.rank)} (x : FVec Ideal s .f32)
    (bc : S_.BroadcastsInDim s (![] : Fin 0 → Fin s.rank)) (red : s.ReducesTo axes S_) (hu : 0 < S_.numel)
    (e : Host.reduce IntOp.andi (cmpf .olt (Host.absf x) (broadcastInDim s ![] bc (constant S_ .f32 0x7F800000#32)))
      (constantI S_ 1 1#1) red hu ix0 = 1#1) (i : s.Idx) : ∃ r : ℝ, x i = r :=
  real_of_abs_lt_inf (x i) (Host.reduce_andi_all _ _ red hu ix0 e i)

/-- A conjunction of two truth values at the one index of the rank-0 shape. -/
theorem andi_ix0 (a b : IVec S_ 1) : andi a b ix0 = 1#1 ↔ a ix0 = 1#1 ∧ b ix0 = 1#1 := IntOp.andi_eq_one

/-- Under the precondition every entry of every argument array (the old cell state included, which the
pre-activations do not read) is a real number. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Cell.Args.Finite
      ⟨m ((c.tc : Thread Cert.KernelIdeal.nD Cert.KernelIdeal.τ).loc Cert.KernelIdeal.main_arg0),
       m ((c.tc : Thread Cert.KernelIdeal.nD Cert.KernelIdeal.τ).loc Cert.KernelIdeal.main_arg1),
       m ((c.tc : Thread Cert.KernelIdeal.nD Cert.KernelIdeal.τ).loc Cert.KernelIdeal.main_arg2),
       m ((c.tc : Thread Cert.KernelIdeal.nD Cert.KernelIdeal.τ).loc Cert.KernelIdeal.main_arg3),
       m ((c.tc : Thread Cert.KernelIdeal.nD Cert.KernelIdeal.τ).loc Cert.KernelIdeal.main_arg4),
       m ((c.tc : Thread Cert.KernelIdeal.nD Cert.KernelIdeal.τ).loc Cert.KernelIdeal.main_arg5),
       m ((c.tc : Thread Cert.KernelIdeal.nD Cert.KernelIdeal.τ).loc Cert.KernelIdeal.main_arg6),
       m ((c.tc : Thread Cert.KernelIdeal.nD Cert.KernelIdeal.τ).loc Cert.KernelIdeal.main_arg7),
       m ((c.tc : Thread Cert.KernelIdeal.nD Cert.KernelIdeal.τ).loc Cert.KernelIdeal.main_arg8),
       m ((c.tc : Thread Cert.KernelIdeal.nD Cert.KernelIdeal.τ).loc Cert.KernelIdeal.main_arg9),
       m ((c.tc : Thread Cert.KernelIdeal.nD Cert.KernelIdeal.τ).loc Cert.KernelIdeal.main_arg10)⟩ := by
  have e := congrFun (h c) ix0
  dsimp only [fn, fn_part1, fn_part2, fn_part3] at e
  simp only [andi_ix0] at e
  obtain ⟨⟨⟨⟨⟨⟨⟨⟨⟨⟨e0, e1⟩, _⟩, e3⟩, e4⟩, e5⟩, e6⟩, e7⟩, e8⟩, e9⟩, e10⟩ := e
  exact
    { x := finite_of_all _ _ _ _ e0
      h := finite_of_all _ _ _ _ e1
      ux := finite_of_all _ _ _ _ e3
      uh := finite_of_all _ _ _ _ e4
      vx := finite_of_all _ _ _ _ e5
      vh := finite_of_all _ _ _ _ e6
      bx := finite_of_all _ _ _ _ e7
      bh := finite_of_all _ _ _ _ e8
      dx := finite_of_all _ _ _ _ e9
      dh := finite_of_all _ _ _ _ e10 }

end Cert.Cell

end
-- ==== Proof.lean ====
/-
  The certificate of the low-rank LSTM cell: the fused kernel against the term-by-term reference, over the extended reals.

  Both programs compute, per batch row and hidden column, four gate pre-activations, then the new cell state
  `σ(f)·c + σ(i)·tanh(n)` and the new hidden state `σ(o)·tanh` of it. They differ only in how a pre-activation is arranged
  (Proof/Spec.lean): the kernel multiplies the two rank-64 projections, set side by side, by the two up-projections
  stacked — one rank-128 product — and folds the diagonal and correction terms into `(dx − coefX)·x + (dh − coefH)·h` and
  one summed bias; the reference adds `(x·ux)·vxᵀ − x·coefX + bx`, `(h·uh)·vhᵀ − h·coefH + bh` and `dx·x + dh·h`. The
  kernel's run ends with the fused arrangement in both result arrays (Proof/KernelValue.lean over the generated value leg;
  the host operations before the call are read in Proof/KernelHost.lean), the reference's run with the term-by-term one
  (Proof/RefValue.lean over the generated run), and for finite arguments — which the precondition gives
  (Proof/Finite.lean) — the two agree by distributivity and by splitting the rank-128 sum in two (Proof/Algebra.lean).
  The kernel has no rewritten operation, so the idealization claim is empty; the frames are the generated ones.
-/
import proofs.«115530_j67027259621386_2_alg».proof.Defs
import proofs.«115530_j67027259621386_2_alg».proof.Proof.Gen.Kernel
import proofs.«115530_j67027259621386_2_alg».proof.Proof.Gen.Kernel.Skeleton
import proofs.«115530_j67027259621386_2_alg».proof.Proof.Gen.Kernel.Launch
import proofs.«115530_j67027259621386_2_alg».proof.Proof.Gen.Kernel.Points
import proofs.«115530_j67027259621386_2_alg».proof.Proof.Gen.Kernel.Frame
import proofs.«115530_j67027259621386_2_alg».proof.Proof.Gen.KernelIdeal
import proofs.«115530_j67027259621386_2_alg».proof.Proof.Gen.KernelIdeal.Skeleton
import proofs.«115530_j67027259621386_2_alg».proof.Proof.Gen.KernelIdeal.Launch
import proofs.«115530_j67027259621386_2_alg».proof.Proof.Gen.KernelIdeal.Points
import proofs.«115530_j67027259621386_2_alg».proof.Proof.Gen.KernelIdeal.Frame
import proofs.«115530_j67027259621386_2_alg».proof.Proof.Gen.ReferenceIdeal
import proofs.«115530_j67027259621386_2_alg».proof.Proof.Gen.Pre_finite_inputs
import proofs.«115530_j67027259621386_2_alg».proof.Proof.Gen.KernelIdeal.Value
import proofs.«115530_j67027259621386_2_alg».proof.Proof.Gen.ReferenceIdeal.Run
import proofs.«115530_j67027259621386_2_alg».proof.Proof.Gen.ReferenceIdeal.Read
import proofs.«115530_j67027259621386_2_alg».proof.Proof.KernelValue
import proofs.«115530_j67027259621386_2_alg».proof.Proof.KernelHostAt
import proofs.«115530_j67027259621386_2_alg».proof.Proof.RefValue
import proofs.«115530_j67027259621386_2_alg».proof.Proof.Algebra
import proofs.«115530_j67027259621386_2_alg».proof.Proof.Finite
import Idealize.ShloMosaic.Adequacy
import Idealize.ShloMosaic.Init

noncomputable section

namespace Cert.Proof

open Idealize.ShloMosaic Idealize.ShloMosaic.TcCoe Idealize.SL.Sem Cert.Cell

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel ends with the fused arrangement in both results, the reference with the term-by-term one of arguments
    that agree; the arguments are finite by the precondition, so the two arrangements are one function. -/
theorem algebraic : Cert.algebraic_KernelIdeal_ReferenceIdeal := by
  intro m ρ m' ρ' hpre hagree
  refine ⟨fun c => hK (argsOf m c), fun c => cK (argsOf m c),
    KValue.run m ρ (Host.V_ux m) (Host.V_uh m) (Host.V_w m) (Host.V_a m) (Host.V_d m) (Host.V_b m), ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v83_eq, Ref.hR_eq, a0, a1, a2, a3, a4, a5, a6, a7, a8, a9, a10]
    exact (hK_eq_hR (argsOf m c) (finite_of_pre m hpre c)).symm
  · obtain ⟨a0, a1, a2, a3, a4, a5, a6, a7, a8, a9, a10⟩ := hagree c
    rw [(h c).2.1, Cert.ReferenceIdeal.Read.val_main_v81_eq, Ref.cR_eq, a0, a1, a2, a3, a4, a5, a6, a7, a8, a9, a10]
    exact (cK_eq_cR (argsOf m c) (finite_of_pre m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
